-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10000x64 : S_.BroadcastsInDim S10000x64 (![] : Fin 0 → Fin S10000x64.rank)
  reducesTo_S10000x64_S_d0_1 : S10000x64.ReducesTo [0, 1] S_

variable [Facts]

def fn_part2 {F : FTy → Type} [FloatOps F] (main_arg7 : FVec F S64 .f32) (main_arg8 : FVec F S10000x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S10000x64 .f32 := Host.absf main_arg8
  let main_cst_14 : FVec F S_ .f32 := constant S_ .f32 0x7F800000#32
  let main_v40 : FVec F S10000x64 .f32 := broadcastInDim S10000x64 ![] bcast_S_S10000x64 main_cst_14
  let main_v41 : IVec S10000x64 1 := cmpf .olt main_v39 main_v40
  let main_c_15 : IVec S_ 1 := constantI S_ 1 1#1
  let main_v42 : IVec S_ 1 := (fun x v => Host.reduce IntOp.andi x v reducesTo_S10000x64_S_d0_1 h_S_) main_v41 main_c_15
  let main_v43 : IVec S_ 1 := andi main_v38 main_v42
  main_v43

def fn_part1 {F : FTy → Type} [FloatOps F] (main_arg4 : FVec F S128x64 .f32) (main_arg5 : FVec F S64 .f32) (main_arg6 : FVec F S128x64 .f32) (main_arg7 : FVec F S64 .f32) (main_arg8 : FVec F S10000x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S10000x64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S1x128 : Shape := ⟨2, ![1, 128]⟩
abbrev S400x10000 : Shape := ⟨2, ![400, 10000]⟩
abbrev S400x64 : Shape := ⟨2, ![400, 64]⟩
abbrev S400x128 : Shape := ⟨2, ![400, 128]⟩

abbrev nBuf : Space → Nat
  | .hbm => 14
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x64, .f32⟩
  | .local _ .vmem, ⟨8, _⟩ => ⟨S400x64, .f32⟩
  | .local _ .vmem, ⟨9, _⟩ => ⟨S400x64, .f32⟩
  | .local _ .vmem, ⟨10, _⟩ => ⟨S400x64, .f32⟩
  | .local _ .vmem, ⟨11, _⟩ => ⟨S10000x128, .f32⟩
  | .local _ .vmem, ⟨12, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c25_i32_13 : BitVec 32 := 25#32
  let c0_i32_14 : BitVec 32 := 0#32
  let v21 : BitVec 1 := Scalar.cmpi .eq c25_i32_13 c0_i32_14
  let c1_i32 : BitVec 32 := 1#32
  let v22 : BitVec 32 := Scalar.select v21 c1_i32 c25_i32_13
  let v23 : BitVec 32 := Scalar.remsi arg0 v22
  let c0_i32_16 : BitVec 32 := 0#32
  let v25 : BitVec 1 := Scalar.cmpi .slt v23 c0_i32_16
  let c0_i32_17 : BitVec 32 := 0#32
  let v26 : BitVec 1 := Scalar.cmpi .slt v22 c0_i32_17
  let v27 : BitVec 1 := Scalar.xori v25 v26
  let c0_i32_15 : BitVec 32 := 0#32
  let v24 : BitVec 1 := Scalar.cmpi .ne v23 c0_i32_15
  let v28 : BitVec 1 := Scalar.andi v27 v24
  let v29 : BitVec 32 := Scalar.addi v23 v22
  let v30 : BitVec 32 := Scalar.select v28 v29 v23
  let c400_i32 : BitVec 32 := 400#32
  let v31 : BitVec 32 := Scalar.muli v30 c400_i32
  let v32 : Index := Scalar.indexCast v31
  let c0_18 : Index := 0#32
  ![v32.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let c0_i32 : BitVec 32 := 0#32
  let v1 : BitVec 1 := Scalar.cmpi .eq c25_i32_0 c0_i32
  let c1_i32 : BitVec 32 := 1#32
  let v2 : BitVec 32 := Scalar.select v1 c1_i32 c25_i32_0
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 c0_i32_4 v10
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let c0_i32 : BitVec 32 := 0#32
  let v1 : BitVec 1 := Scalar.cmpi .eq c25_i32_0 c0_i32
  let c1_i32 : BitVec 32 := 1#32
  let v2 : BitVec 32 := Scalar.select v1 c1_i32 c25_i32_0
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 c0_i32_4 v10
  let c0_i32_5 : BitVec 32 := 0#32
  let c0_i32_6 : BitVec 32 := 0#32
  ![v11.toNat, c0_i32_5.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S128x128_S128x128 : S128x128.ShapeCasts S128x128
  h_S400x128 : 0 < S400x128.numel
  shapeCasts_S400x128_S400x128 : S400x128.ShapeCasts S400x128
  slices_S400x128_o0_0_S400x64 : S400x128.Slices ![0, 0] S400x64
  slices_S400x128_o0_64_S400x64 : S400x128.Slices ![0, 64] S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S400x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S1x128 : Shape := ⟨2, ![1, 128]⟩
abbrev S_ : Shape := ⟨0, ![]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x64, .f32⟩
  | .hbm, ⟨18, _⟩ => ⟨S10000x64, .f32⟩
  | .hbm, ⟨19, _⟩ => ⟨S1x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x64, .f32⟩
  | .hbm, ⟨24, _⟩ => ⟨S1x64, .f32⟩
  | .hbm, ⟨25, _⟩ => ⟨S10000x64, .f32⟩
  | .hbm, ⟨26, _⟩ => ⟨S10000x64, .f32⟩
  | .hbm, ⟨27, _⟩ => ⟨S_, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Bits.Stages.lean ====
/-
  The grid of the fused encoder has fifty points in two stages of twenty-five. At point 0 the product
  x · W1 is formed once and kept; at every point t < 25 row band t of the hidden product
  relu(adj · (x · W1) + b1) · [W_mu | W_lv] is stored into rows [400 t, 400 t + 400) of a second kept array;
  at every point t ≥ 25 row band t - 25 of the output is formed from the whole second array. This module
  decides, over the fifty points, which of the three branches a point takes, where the band store lands,
  and at which points the output block is left untouched and not written back; and it restates the region's
  invariant with the two kept arrays as owned buffers.
-/
import proofs.«162829_g15874199126456_cont_week2b_1129_18_alg».proof.Proof.Gen.Kernel.Frame
import proofs.«162829_g15874199126456_cont_week2b_1129_18_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition (the grid coordinate is zero), as the body computes it. -/
abbrev condFirst (i : grid0.Coords) : Prop :=
  (Scalar.cmpi .ne (Scalar.extui (Scalar.cmpi .eq (BitVec.ofNat 32 (i 0).val) 0#32)) 0#32) = 1#1
/-- The second branch's condition (the coordinate is below 25). -/
abbrev condBand (i : grid0.Coords) : Prop := k0_cond2 i = 1#1
/-- The third branch's condition (the coordinate is at least 25). -/
abbrev condOut (i : grid0.Coords) : Prop := k0_cond3 i = 1#1

/-- The first branch is taken at point 0 only. -/
theorem hcondFirst : ∀ t : Fin cfg0.N, condFirst (grid0.coords t) ↔ t.val = 0 :=
  (by decide +kernel : ∀ t : Fin grid0.N, condFirst (grid0.coords t) ↔ t.val = 0)
/-- The second branch is taken exactly at the points below 25. -/
theorem hcondBand : ∀ t : Fin cfg0.N, condBand (grid0.coords t) ↔ t.val < 25 :=
  (by decide +kernel : ∀ t : Fin grid0.N, condBand (grid0.coords t) ↔ t.val < 25)
/-- The third branch is taken exactly at the points from 25 on. -/
theorem hcondOut : ∀ t : Fin cfg0.N, condOut (grid0.coords t) ↔ 25 ≤ t.val :=
  (by decide +kernel : ∀ t : Fin grid0.N, condOut (grid0.coords t) ↔ 25 ≤ t.val)

/-- The band store of point t lands at row 400 · (t mod 25), column 0. -/
theorem bandOffset : ∀ t : Fin cfg0.N, k0_off1 (grid0.coords t) = ![400 * (t.val % 25), 0] :=
  (by decide +kernel : ∀ t : Fin grid0.N, k0_off1 (grid0.coords t) = ![400 * (t.val % 25), 0])

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- In the first stage the output block is idle: nothing is stored into it, -/
theorem idleOut : ∀ t : Fin cfg0.N, t.val < 25 → cfg0.idle 7 (grid0.coords t) = true := by decide +kernel
/-- and it is not written back there; -/
theorem noFlushOut : ∀ t : Fin cfg0.N, t.val < 25 → (cfg0.win 7).flush t = false := by decide +kernel
/-- in the second stage it is live. -/
theorem liveOut : ∀ t : Fin cfg0.N, 25 ≤ t.val → cfg0.idle 7 (grid0.coords t) = false := by decide +kernel

/-- Each window's current staging buffer at point t, and that it is a whole buffer. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x64 .f32 := win0_7.stage (cfg0.slots t 7)
abbrev hs7 (t : Fin cfg0.N) : (ms7 t).IsWhole := hstage0_7 ((cfg0.slots t 7).cast nbuf0_7)
/-- The two kept arrays: x · W1, and the hidden product's row bands. -/
abbrev keptP : Memref sig .tc .vmem S10000x128 .f32 := Memref.whole cc0_scratch0
abbrev keptQ : Memref sig .tc .vmem S10000x128 .f32 := Memref.whole cc0_scratch1

/-- The offsets of a rank-2 rectangle that starts at the origin. -/
theorem origin2 : (![0, 0] : Fin 2 → ℕ) = fun _ => 0 := by
  funext a; fin_cases a <;> rfl

/-- Loading the whole of a whole buffer that holds x reads x. -/
theorem load_whole {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- The region's plain invariant: the two kept arrays owned at some contents, and the generator register. -/
theorem plainInv_eq (c : Dev nD) :
    (Pipeline.ΦA spec0 c : sProp 𝕄)
      = iprop(iprop((∃ d, owns (c : Thread nD τ) keptP fullShare d) ∗ (∃ d, owns (c : Thread nD τ) keptQ fullShare d)) ∗ (∃ r, prngReg c r)) := by
  unfold Pipeline.ΦA; rw [scopedRest0_eq]; simp only [keptP, keptQ, owns_whole]; try rfl

end Cert.Kernel.Body

end
-- ==== Proof.Bits.Bands.lean ====
/-
  The second kept array is filled band by band: after the points below n it holds, in rows [400 t, 400 t + 400),
  band t for every t < min n 25, and in its other rows whatever it held before the region. This module states that
  as a property of the array's contents, shows that the band store of point t (rows 400 t onward, all columns)
  extends the property from t to t + 1, that the property no longer changes once all twenty-five bands are in,
  and that with all twenty-five in the array is determined: entry (r, k) is entry (r mod 400, k) of band r / 400.
-/
import proofs.«162829_g15874199126456_cont_week2b_1129_18_alg».proof.Proof.Bits.Stages
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- The bands of the points below n are in their rows. -/
def BandsUpTo (bd : Fin cfg0.N → Vec F S400x128 .f32) (n : ℕ) (q : Vec F S10000x128 .f32) : Prop :=
  ∀ t : Fin cfg0.N, t.val < n → t.val < 25 → ∀ (x : S400x128.Idx) (y : S10000x128.Idx),
    (y (0 : Fin 2)).val = 400 * t.val + (x (0 : Fin 2)).val → (y (1 : Fin 2)).val = (x (1 : Fin 2)).val → q y = bd t x

/-- The array whose row band t is bd t, for t = 0 … 24. -/
def assemble (bd : Fin cfg0.N → Vec F S400x128 .f32) : Vec F S10000x128 .f32 := fun y =>
  bd ⟨(y (0 : Fin 2)).val / 400, by
      have h : (y (0 : Fin 2)).val < 10000 := (y (0 : Fin 2)).isLt
      have hN : cfg0.N = 50 := N_0
      omega⟩
    (ix2 (⟨(y (0 : Fin 2)).val % 400, Nat.mod_lt _ (by decide)⟩ : Fin 400) (⟨(y (1 : Fin 2)).val, (y (1 : Fin 2)).isLt⟩ : Fin 128))

/-- Nothing is asked before the first point. -/
theorem bands_zero (bd : Fin cfg0.N → Vec F S400x128 .f32) (q : Vec F S10000x128 .f32) : BandsUpTo bd 0 q :=
  fun _ h => absurd h (Nat.not_lt_zero _)

/-- Once all twenty-five bands are in, later points add no requirement. -/
theorem bands_mono (bd : Fin cfg0.N → Vec F S400x128 .f32) {n : ℕ} (q : Vec F S10000x128 .f32) (hn : 25 ≤ n)
    (h : BandsUpTo bd n q) : BandsUpTo bd (n + 1) q :=
  fun t _ h25 => h t (by omega) h25

/-- With all twenty-five bands in, the array is the bands assembled. -/
theorem bands_full (bd : Fin cfg0.N → Vec F S400x128 .f32) {n : ℕ} (q : Vec F S10000x128 .f32) (hn : 25 ≤ n)
    (h : BandsUpTo bd n q) : q = assemble bd := by
  funext y
  have h0 : (y (0 : Fin 2)).val < 10000 := (y (0 : Fin 2)).isLt
  exact h _ (show (y (0 : Fin 2)).val / 400 < n by omega) (show (y (0 : Fin 2)).val / 400 < 25 by omega) _ y
    (show (y (0 : Fin 2)).val = 400 * ((y (0 : Fin 2)).val / 400) + (y (0 : Fin 2)).val % 400 by omega) rfl

/-- A store through the whole of a view, last, leaves its payload. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

/-- The band store of point t < 25 (rows 400 · (t mod 25) onward, every column) over contents that have the bands
    below t leaves contents that have the bands below t + 1. -/
theorem bands_store (bd : Fin cfg0.N → Vec F S400x128 .f32) {κ : Kind} {sp : Space} (v : View sig κ sp S10000x128 .f32)
    (f : v.ty.Contents (Elt F)) (t : Fin cfg0.N) (ht : t.val < 25) {off : Fin 2 → ℕ}
    (inb : ∀ a : Fin 2, off a + S400x128.size a ≤ S10000x128.size a) (hoff : off = ![400 * (t.val % 25), 0])
    (h : BandsUpTo bd t.val (v.read (Elt F) f)) :
    BandsUpTo bd (t.val + 1)
      (v.read (Elt F) (v.writes (Elt F) f [(⟨Rect.unit (s := S10000x128) off S400x128.size inb, bd t⟩ : View.Piece (Elt F) S10000x128 .f32)])) := by
  intro t' ht' ht'25 x y hy0 hy1
  have hmod : t.val % 25 = t.val := Nat.mod_eq_of_lt ht
  have hx : (x (0 : Fin 2)).val < 400 := (x (0 : Fin 2)).isLt
  by_cases e : t'.val = t.val
  · obtain rfl : t' = t := Fin.ext e
    exact View.read_writes_cons_rows_of_mem v f inb (bd t') [] y x hoff (by rw [hmod]; exact hy0) hy1
  · rw [View.read_writes_cons_rows_of_not_mem v f inb (bd t) [] y hoff (W := 400) rfl (Or.inl (by rw [hmod]; omega)), View.writes_nil]
    exact h t' (by omega) ht'25 x y hy0 hy1

end Cert.Kernel.Body

end
-- ==== Proof.Bits.Carried.lean ====
/-
  What the region carries from point to point, and its proof data. Named here, as functions of the argument
  arrays as the region finds them: the product x · W1 (what the first point stores whole), band t of the hidden
  product (what a first-stage point stores, from its row block of adj, x · W1, b1 and the concatenated weights),
  the hidden array assembled from the twenty-five bands, and the output block of a second-stage point (from its
  row block of adj, the assembled hidden array, the concatenated bias and its block of eps). The invariant before
  a point after the first: the first kept array holds x · W1, and the second holds the bands of the points before.
-/
import proofs.«162829_g15874199126456_cont_week2b_1129_18_alg».proof.Proof.Bits.Bands

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The grid's first point. -/
def pt0 : Fin cfg0.N := ⟨0, by have h : cfg0.N = 50 := N_0; omega⟩

/-- x · W1, as the first point forms it from the whole of x and W1. -/
def prodP (c : Dev nD) : Vec F S10000x128 .f32 := k0_pay1 (iblk m c 1 pt0) (iblk m c 2 pt0)

/-- Band t of the hidden product: relu(adj_block t · (x · W1) + b1) · [W_mu | W_lv]. -/
def band (c : Dev nD) (t : Fin cfg0.N) : Vec F S400x128 .f32 :=
  k0_pay2 (iblk m c 0 t) (prodP m c) (iblk m c 3 t) (iblk m c 4 t)

/-- The hidden product, all twenty-five bands. -/
def hidden (c : Dev nD) : Vec F S10000x128 .f32 := assemble (band m c)

/-- The output block of point t: o[:, :64] + exp(0.5 · o[:, 64:]) · eps_block, o = adj_block · hidden + bias. -/
def outBlock (c : Dev nD) (t : Fin cfg0.N) : Vec F S400x64 .f32 :=
  k0_pay3 (iblk m c 0 t) (hidden m c) (iblk m c 5 t) (iblk m c 6 t)

/-- The invariant before position n: before the first point the plain one (the kept arrays at anything); afterwards
    the first kept array at x · W1, the second at contents holding the bands of the points before n. -/
def Inv (c : Dev nD) : ℕ → sProp 𝕄
  | 0 => Pipeline.ΦA spec0 c
  | n + 1 => iprop(iprop(owns (c : Thread nD τ) keptP fullShare (prodP m c)
      ∗ (∃ q, ⌜BandsUpTo (band m c) (n + 1) q⌝ ∗ owns (c : Thread nD τ) keptQ fullShare q)) ∗ (∃ r, prngReg c r))

theorem Inv_succ (c : Dev nD) (n : ℕ) :
    Inv m c (n + 1) = iprop(iprop(owns (c : Thread nD τ) keptP fullShare (prodP m c)
      ∗ (∃ q, ⌜BandsUpTo (band m c) (n + 1) q⌝ ∗ owns (c : Thread nD τ) keptQ fullShare q)) ∗ (∃ r, prngReg c r)) := rfl

theorem Inv_pos (c : Dev nD) (n : ℕ) (hz : n ≠ 0) :
    Inv m c n = iprop(iprop(owns (c : Thread nD τ) keptP fullShare (prodP m c)
      ∗ (∃ q, ⌜BandsUpTo (band m c) n q⌝ ∗ owns (c : Thread nD τ) keptQ fullShare q)) ∗ (∃ r, prngReg c r)) := by
  cases n with
  | zero => exact absurd rfl hz
  | succ n => rfl

/-- The proof data on core c: the arrays as the region finds them; after the body each input's buffer at its block,
    the output's at the point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := Inv m c t.val
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val := by
  dsimp only [dats]; simp only [Fin.coe_castSucc]

theorem Inv_atSucc (c : Dev nD) (t : Fin cfg0.N) : (dats m 0 c).Φ t.succ = Inv m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is handed at point t: the invariant, what the core owes, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- An input's buffer is returned at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
/-- The output's buffer is returned as found in the first stage, -/
theorem leaves7_idle (c : Dev nD) (t : Fin cfg0.N) (h : t.val < 25) :
    (dats m 0 c).leavesExact 7 t = iprop(∃ d, owns (c : Thread nD τ) (ms7 t) fullShare ((dats m 0 c).before 7 t d)) :=
  Dat.leavesExact_idle (dats m 0 c) 7 t (idleOut t h) (noFlushOut t h)
/-- and at the point's output block in the second. -/
theorem leaves7_live (c : Dev nD) (t : Fin cfg0.N) (h : 25 ≤ t.val) :
    (dats m 0 c).leavesExact 7 t = owns (c : Thread nD τ) (ms7 t) fullShare (outBlock m c t) := by
  unfold Dat.leavesExact; rw [liveOut t h, after7]

end Cert.Kernel.Body

end
-- ==== Proof.Bits.StepFirst.lean ====
/-
  The body at the first point (grid coordinate 0): it forms x · W1 from the whole of x and W1 and stores it
  whole into the first kept array; then, reading that product back, the first row block of adj, the bias row b1
  and the concatenated weights, it stores row band 0 of  relu(adj · (x · W1) + b1) · [W_mu | W_lv]  into rows
  [0, 400) of the second kept array, over what that array held.
-/
import proofs.«162829_g15874199126456_cont_week2b_1129_18_alg».proof.Proof.Bits.Stages

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first point's body as a triple: the first kept array ends with the stores the run lists written over
    anything, the second at its previous contents with the listed stores written over them. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    Σ' (L9 : List (View.Piece (Elt F) S10000x128 .f32)), { L10 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg9 fullShare d) ∗ owns (c : Thread nD τ) arg10 fullShare q
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread q) L10)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%d9, %f9, -, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg10.eq_unread hf10
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]; · iexists _; iexact H9
    iexact H10

/-- The first point's store into the first kept array: the whole array at x · W1. -/
theorem runFirst_prod (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    (runFirst c i arg1 harg1 arg2 harg2 arg3 harg3 arg4 harg4 arg5 harg5 arg6 harg6 arg7 harg7 arg8 harg8 arg9 harg9 arg10 harg10 h1 h2 h3 x0 x1 x2 x3 x4 q).1
      = [⟨Rect.unit (s := S10000x128) ![0, 0] S10000x128.size inb_S10000x128_S10000x128_0_0, k0_pay1 x1 x2⟩] := by
  unfold runFirst; dsimp only; sl_unfold_run_names
  rw [load_whole arg2 harg2 origin2, load_whole arg3 harg3 origin2]

/-- Its store into the second: band 0, formed from the product just stored, at the offsets the body computes. -/
theorem runFirst_band (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    (runFirst c i arg1 harg1 arg2 harg2 arg3 harg3 arg4 harg4 arg5 harg5 arg6 harg6 arg7 harg7 arg8 harg8 arg9 harg9 arg10 harg10 h1 h2 h3 x0 x1 x2 x3 x4 q).2.1
      = [⟨Rect.unit (s := S10000x128) (k0_off1 i) S400x128.size (k0_off1_inb i h2), k0_pay2 x0 (k0_pay1 x1 x2) x3 x4⟩] := by
  unfold runFirst; dsimp only; sl_unfold_run_names
  rw [View.readCov_unit_zero arg9.view origin2, load_whole arg2 harg2 origin2, load_whole arg3 harg3 origin2,
    load_whole arg1 harg1 origin2, load_whole arg4 harg4 origin2, load_whole arg5 harg5 origin2]

end Cert.Kernel.Body

end
-- ==== Proof.Bits.SoundFirst.lean ====
/-
  The body's obligation at the first point. The plain invariant hands the body the two kept arrays at anything;
  the run stores x · W1 whole into the first and band 0 into the second, which establishes the invariant of the
  later points with one band in; the output buffer, idle here, is handed back as found.
-/
import proofs.«162829_g15874199126456_cont_week2b_1129_18_alg».proof.Proof.Bits.Carried
import proofs.«162829_g15874199126456_cont_week2b_1129_18_alg».proof.Proof.Bits.StepFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_first (c : Dev nD) :
    bodyPre m c pt0 ⊢ wp frame (wpE (defs₀ (F := F)) Variants.none c none) Set.univ (bodyAt0 pt0) (fun _ => bodyPost m c pt0) := by
  have hlt : (pt0 : Fin cfg0.N).val < 25 := Nat.zero_lt_succ _
  unfold bodyPre bodyPost bodyAt0
  simp only [before0, before1, before2, before3, before4, before5, before6]
  rw [show (dats m 0 c).owesAt () (Fin.succ pt0) = (dats m 0 c).owesAt () (Fin.castSucc pt0) from rfl]
  rw [Inv_atSucc, Inv_succ, Inv_castSucc, show Inv m c (pt0 : Fin cfg0.N).val = Pipeline.ΦA spec0 c from rfl, plainInv_eq]
  rw [leaves0, leaves1, leaves2, leaves3, leaves4, leaves5, leaves6, leaves7_idle m c pt0 hlt]
  have hF : condFirst (grid0.coords pt0) := (hcondFirst pt0).mpr rfl
  have hB : condBand (grid0.coords pt0) := (hcondBand pt0).mpr hlt
  have hO : ¬condOut (grid0.coords pt0) := fun h => by have := (hcondOut pt0).mp h; omega
  iintro ⟨⟨⟨⟨%dp, HP⟩, ⟨%dq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) keptP (Memref.isWhole_whole _) keptQ (Memref.isWhole_whole _) hF hB hO (iblk m c 0 pt0) (iblk m c 1 pt0) (iblk m c 2 pt0) (iblk m c 3 pt0) (iblk m c 4 pt0) dq).2.2 Set.univ _)
  isplitl [H0]; · iexact H0
  isplitl [H1]; · iexact H1
  isplitl [H2]; · iexact H2
  isplitl [H3]; · iexact H3
  isplitl [H4]; · iexact H4
  isplitl [HP]; · iexists _; iexact HP
  isplitl [HQ]; · iexact HQ
  iintro ⟨H0, H1, H2, H3, H4, ⟨%f9, HP⟩, HQ⟩
  isplitl [HP HQ Hg]
  · isplitl [HP HQ]
    · isplitl [HP]
      · unfold owns; iexists _; isplitr
        swap; · iexact HP
        ipureintro
        rw [runFirst_prod]
        exact read_store_whole _ _ origin2 _ _ _
      iexists _; isplitr
      swap
      · unfold owns; iexists _; isplitr
        swap; · iexact HQ
        ipureintro; rfl
      ipureintro
      rw [runFirst_band]
      exact bands_store (band m c) keptQ.view _ pt0 hlt _ (bandOffset pt0) (bands_zero _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Body

end
-- ==== Proof.Bits.StepBand.lean ====
/-
  The body at a point of the first stage after the first (grid coordinate from 1 to 24): it reads the current
  row block of adj, the kept product x · W1, the bias row b1 and the concatenated weights, and stores the row band
  relu(adj_block · (x · W1) + b1) · [W_mu | W_lv]  into rows [400 t, 400 t + 400) of the second kept array, over
  what that array held; nothing else changes.
-/
import proofs.«162829_g15874199126456_cont_week2b_1129_18_alg».proof.Proof.Bits.Stages

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The band-storing body as a triple: the second kept array ends at its previous contents with the stores the
    run lists written over them (one store: the band). -/
noncomputable def runBand (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : condBand i) (h3 : ¬condOut i)
    (x0 : Vec F S400x10000 .f32) (x3 : Vec F S1x128 .f32) (x4 : Vec F S128x128 .f32) (p : Vec F S10000x128 .f32) (q : Vec F S10000x128 .f32) :
    { L10 : List (View.Piece (Elt F) S10000x128 .f32) //
      ∀ (E : Set ℕ) (K : PUnit → sProp 𝕄),
        iprop(owns (c : Thread nD τ) arg1 fullShare x0 ∗ owns (c : Thread nD τ) arg4 fullShare x3 ∗ owns (c : Thread nD τ) arg5 fullShare x4
            ∗ owns (c : Thread nD τ) arg9 fullShare p ∗ owns (c : Thread nD τ) arg10 fullShare q
            ∗ (iprop(owns (c : Thread nD τ) arg1 fullShare x0 ∗ owns (c : Thread nD τ) arg4 fullShare x3 ∗ owns (c : Thread nD τ) arg5 fullShare x4
                ∗ owns (c : Thread nD τ) arg9 fullShare p
                ∗ (arg10.view.loc (c : Thread nD τ) ↦[arg10.view.set]{fullShare} arg10.view.writes (Elt F) (harg10.unread q) L10)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f1, %hf1, H1⟩, ⟨%f4, %hf4, H4⟩, ⟨%f5, %hf5, H5⟩, ⟨%f9, %hf9, H9⟩, ⟨%f10, %hf10, H10⟩, Hk⟩
    obtain rfl := harg1.eq_unread hf1; obtain rfl := harg4.eq_unread hf4; obtain rfl := harg5.eq_unread hf5
    obtain rfl := harg9.eq_unread hf9; obtain rfl := harg10.eq_unread hf10
    sl_exec (disch := first | exact h1 | exact h2 | exact h3)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    iexact H10

/-- The one store of such a point: the band, at the offsets the body computes. -/
theorem runBand_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : condBand i) (h3 : ¬condOut i)
    (x0 : Vec F S400x10000 .f32) (x3 : Vec F S1x128 .f32) (x4 : Vec F S128x128 .f32) (p : Vec F S10000x128 .f32) (q : Vec F S10000x128 .f32) :
    (runBand c i arg1 harg1 arg2 harg2 arg3 harg3 arg4 harg4 arg5 harg5 arg6 harg6 arg7 harg7 arg8 harg8 arg9 harg9 arg10 harg10 h1 h2 h3 x0 x3 x4 p q).1
      = [⟨Rect.unit (s := S10000x128) (k0_off1 i) S400x128.size (k0_off1_inb i h2), k0_pay2 x0 p x3 x4⟩] := by
  unfold runBand; dsimp only
  rw [load_whole arg1 harg1 origin2, load_whole arg9 harg9 origin2, load_whole arg4 harg4 origin2, load_whole arg5 harg5 origin2]

end Cert.Kernel.Body

end
-- ==== Proof.Bits.SoundBand.lean ====
/-
  The body's obligation at a first-stage point after the first. The invariant gives the first kept array at
  x · W1 and the second with the bands of the earlier points; the run stores this point's band over them, which
  extends the bands by one; the output buffer, idle here, is handed back as found.
-/
import proofs.«162829_g15874199126456_cont_week2b_1129_18_alg».proof.Proof.Bits.Carried
import proofs.«162829_g15874199126456_cont_week2b_1129_18_alg».proof.Proof.Bits.StepBand

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_band (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () (Fin.succ t) = (dats m 0 c).owesAt () (Fin.castSucc t) from rfl]
  rw [Inv_atSucc, Inv_succ, Inv_castSucc, Inv_pos m c t.val h0]
  rw [leaves0, leaves1, leaves2, leaves3, leaves4, leaves5, leaves6, leaves7_idle m c t h25]
  have hF : ¬condFirst (grid0.coords t) := fun h => h0 ((hcondFirst t).mp h)
  have hB : condBand (grid0.coords t) := (hcondBand t).mpr h25
  have hO : ¬condOut (grid0.coords t) := fun h => by have := (hcondOut t).mp h; omega
  iintro ⟨⟨⟨HP, ⟨%q, %hq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runBand c (grid0.coords t) (ms0 t) (hs0 t) (ms1 t) (hs1 t) (ms2 t) (hs2 t) (ms3 t) (hs3 t) (ms4 t) (hs4 t) (ms5 t) (hs5 t) (ms6 t) (hs6 t) (ms7 t) (hs7 t) keptP (Memref.isWhole_whole _) keptQ (Memref.isWhole_whole _) hF hB hO (iblk m c 0 t) (iblk m c 3 t) (iblk m c 4 t) (prodP m c) q).2 Set.univ _)
  isplitl [H0]; · iexact H0
  isplitl [H3]; · iexact H3
  isplitl [H4]; · iexact H4
  isplitl [HP]; · iexact HP
  isplitl [HQ]; · iexact HQ
  iintro ⟨H0, H3, H4, HP, HQ⟩
  isplitl [HP HQ Hg]
  · isplitl [HP HQ]
    · isplitl [HP]; · iexact HP
      iexists _; isplitr
      swap
      · unfold owns; iexists _; isplitr
        swap; · iexact HQ
        ipureintro; rfl
      ipureintro
      rw [runBand_pieces]
      exact bands_store (band m c) keptQ.view _ t h25 _ (bandOffset t)
        (by rw [Memref.IsWhole.read_unread]; exact hq)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Body

end
-- ==== Proof.Bits.StepOut.lean ====
/-
  The body at a point of the second stage (grid coordinate at least 25): it reads the current row block of adj,
  the whole kept array of hidden row bands, the concatenated bias row and the current block of eps, and stores
  the output block  o[:, :64] + exp(0.5 · o[:, 64:]) · eps  with  o = adj_block · kept + bias  whole; the two
  kept arrays and every input buffer are left as they were.
-/
import proofs.«162829_g15874199126456_cont_week2b_1129_18_alg».proof.Proof.Bits.Stages

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The second-stage body as a triple: from the four buffers it reads at their contents and the output block's
    buffer at anything, it runs to the same four and the output buffer with one whole-block store of the
    stage's value written (the list of stores is found by the run). -/
noncomputable def runOut (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : ¬condBand i) (h3 : condOut i)
    (x0 : Vec F S400x10000 .f32) (x5 : Vec F S1x128 .f32) (x6 : Vec F S400x64 .f32) (q : Vec F S10000x128 .f32) :
    { L8 : List (View.Piece (Elt F) S400x64 .f32) //
      ∀ (E : Set ℕ) (K : PUnit → sProp 𝕄),
        iprop(owns (c : Thread nD τ) arg1 fullShare x0 ∗ owns (c : Thread nD τ) arg6 fullShare x5 ∗ owns (c : Thread nD τ) arg7 fullShare x6
            ∗ (∃ d, owns (c : Thread nD τ) arg8 fullShare d) ∗ owns (c : Thread nD τ) arg10 fullShare q
            ∗ (iprop(owns (c : Thread nD τ) arg1 fullShare x0 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ owns (c : Thread nD τ) arg10 fullShare q) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f1, %hf1, H1⟩, ⟨%f6, %hf6, H6⟩, ⟨%f7, %hf7, H7⟩, ⟨%d8, %f8, -, H8⟩, ⟨%f10, %hf10, H10⟩, Hk⟩
    obtain rfl := harg1.eq_unread hf1; obtain rfl := harg6.eq_unread hf6; obtain rfl := harg7.eq_unread hf7
    obtain rfl := harg10.eq_unread hf10
    sl_exec (disch := first | exact h1 | exact h2 | exact h3)
    sl_step
    iapply Hk
    isplitl [H1]
    · iexists _; isplitr; · ipureintro; exact harg1.read_unread _
      iexact H1
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg10.read_unread _
    iexact H10

/-- The one store of the second stage: the whole output block at the stage's value. -/
theorem runOut_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : ¬condBand i) (h3 : condOut i)
    (x0 : Vec F S400x10000 .f32) (x5 : Vec F S1x128 .f32) (x6 : Vec F S400x64 .f32) (q : Vec F S10000x128 .f32) :
    (runOut c i arg1 harg1 arg2 harg2 arg3 harg3 arg4 harg4 arg5 harg5 arg6 harg6 arg7 harg7 arg8 harg8 arg9 harg9 arg10 harg10 h1 h2 h3 x0 x5 x6 q).1
      = [⟨Rect.unit (s := S400x64) ![0, 0] S400x64.size inb_S400x64_S400x64_0_0, k0_pay3 x0 q x5 x6⟩] := by
  unfold runOut; dsimp only
  rw [load_whole arg1 harg1 origin2, load_whole arg10 harg10 origin2, load_whole arg6 harg6 origin2, load_whole arg7 harg7 origin2]

end Cert.Kernel.Body

end
-- ==== Proof.Bits.SoundOut.lean ====
/-
  The body's obligation at a point of the second stage. The invariant says the second kept array holds all
  twenty-five bands, so it is the assembled hidden array; the stage's run then leaves the output buffer at the
  point's output block, and the kept arrays and the inputs as they were.
-/
import proofs.«162829_g15874199126456_cont_week2b_1129_18_alg».proof.Proof.Bits.Carried
import proofs.«162829_g15874199126456_cont_week2b_1129_18_alg».proof.Proof.Bits.StepOut

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_out (c : Dev nD) (t : Fin cfg0.N) (h25 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () (Fin.succ t) = (dats m 0 c).owesAt () (Fin.castSucc t) from rfl]
  rw [Inv_atSucc, Inv_succ, Inv_castSucc, Inv_pos m c t.val (by omega)]
  rw [leaves0, leaves1, leaves2, leaves3, leaves4, leaves5, leaves6, leaves7_live m c t h25]
  have hF : ¬condFirst (grid0.coords t) := fun h => by have := (hcondFirst t).mp h; omega
  have hB : ¬condBand (grid0.coords t) := fun h => by have := (hcondBand t).mp h; omega
  have hO : condOut (grid0.coords t) := (hcondOut t).mpr h25
  iintro ⟨⟨⟨HP, ⟨%q, %hq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hqe : q = hidden m c := bands_full (band m c) q h25 hq
  subst hqe
  iapply ((runOut c (grid0.coords t) (ms0 t) (hs0 t) (ms1 t) (hs1 t) (ms2 t) (hs2 t) (ms3 t) (hs3 t) (ms4 t) (hs4 t) (ms5 t) (hs5 t) (ms6 t) (hs6 t) (ms7 t) (hs7 t) keptP (Memref.isWhole_whole _) keptQ (Memref.isWhole_whole _) hF hB hO (iblk m c 0 t) (iblk m c 5 t) (iblk m c 6 t) (hidden m c)).2 Set.univ _)
  isplitl [H0]; · iexact H0
  isplitl [H5]; · iexact H5
  isplitl [H6]; · iexact H6
  isplitl [H7]; · iexists _; iexact H7
  isplitl [HQ]; · iexact HQ
  iintro ⟨H0, H5, H6, ⟨%f8, H7⟩, HQ⟩
  isplitl [HP HQ Hg]
  · isplitl [HP HQ]
    · isplitl [HP]; · iexact HP
      iexists _; isplitr
      · ipureintro; exact bands_mono (band m c) _ h25 hq
      iexact HQ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [runOut_pieces]
  exact read_store_whole _ _ origin2 _ _ _

end Cert.Kernel.Body

end
-- ==== Proof.Bits.Region.lean ====
/-
  The region's run. At every point the body's obligation is one of the three stage obligations, by the point's
  position; the plain invariant is the invariant before the first point, and after the last point the named
  contents of the two kept arrays are forgotten again. So every weakly fair execution of the program terminates
  without fault, every array of the pipeline ends at what the proof data computes, and the argument arrays end
  as launched.
-/
import proofs.«162829_g15874199126456_cont_week2b_1129_18_alg».proof.Proof.Bits.SoundFirst
import proofs.«162829_g15874199126456_cont_week2b_1129_18_alg».proof.Proof.Bits.SoundBand
import proofs.«162829_g15874199126456_cont_week2b_1129_18_alg».proof.Proof.Bits.SoundOut

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The body at any point: the first point, a later first-stage point, or a second-stage point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = pt0 := Fin.ext h0
    exact sound_first m c
  · by_cases h25 : t.val < 25
    · exact sound_band m c t h0 h25
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the plain one back: the kept arrays' named contents are forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last]; have : cfg0.N = 50 := N_0; omega), plainInv_eq]
  iintro ⟨⟨HP, ⟨%q, -, HQ⟩⟩, Hg⟩
  isplitl [HP HQ]
  · isplitl [HP]
    · iexists _; iexact HP
    iexists _; iexact HQ
  iexact Hg

set_option backward.isDefEq.respectTransparency.types false in
/-- Every weakly fair execution of the program terminates, and every final state has each array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.Ideal.Stages.lean ====
/-
  The grid of the fused encoder has fifty points in two stages of twenty-five. At point 0 the product
  x · W1 is formed once and kept; at every point t < 25 row band t of the hidden product
  relu(adj · (x · W1) + b1) · [W_mu | W_lv] is stored into rows [400 t, 400 t + 400) of a second kept array;
  at every point t ≥ 25 row band t - 25 of the output is formed from the whole second array. This module
  decides, over the fifty points, which of the three branches a point takes, where the band store lands,
  and at which points the output block is left untouched and not written back; and it restates the region's
  invariant with the two kept arrays as owned buffers.
-/
import proofs.«162829_g15874199126456_cont_week2b_1129_18_alg».proof.Proof.Gen.KernelIdeal.Frame
import proofs.«162829_g15874199126456_cont_week2b_1129_18_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition (the grid coordinate is zero), as the body computes it. -/
abbrev condFirst (i : grid0.Coords) : Prop :=
  (Scalar.cmpi .ne (Scalar.extui (Scalar.cmpi .eq (BitVec.ofNat 32 (i 0).val) 0#32)) 0#32) = 1#1
/-- The second branch's condition (the coordinate is below 25). -/
abbrev condBand (i : grid0.Coords) : Prop := k0_cond2 i = 1#1
/-- The third branch's condition (the coordinate is at least 25). -/
abbrev condOut (i : grid0.Coords) : Prop := k0_cond3 i = 1#1

/-- The first branch is taken at point 0 only. -/
theorem hcondFirst : ∀ t : Fin cfg0.N, condFirst (grid0.coords t) ↔ t.val = 0 :=
  (by decide +kernel : ∀ t : Fin grid0.N, condFirst (grid0.coords t) ↔ t.val = 0)
/-- The second branch is taken exactly at the points below 25. -/
theorem hcondBand : ∀ t : Fin cfg0.N, condBand (grid0.coords t) ↔ t.val < 25 :=
  (by decide +kernel : ∀ t : Fin grid0.N, condBand (grid0.coords t) ↔ t.val < 25)
/-- The third branch is taken exactly at the points from 25 on. -/
theorem hcondOut : ∀ t : Fin cfg0.N, condOut (grid0.coords t) ↔ 25 ≤ t.val :=
  (by decide +kernel : ∀ t : Fin grid0.N, condOut (grid0.coords t) ↔ 25 ≤ t.val)

/-- The band store of point t lands at row 400 · (t mod 25), column 0. -/
theorem bandOffset : ∀ t : Fin cfg0.N, k0_off1 (grid0.coords t) = ![400 * (t.val % 25), 0] :=
  (by decide +kernel : ∀ t : Fin grid0.N, k0_off1 (grid0.coords t) = ![400 * (t.val % 25), 0])

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- In the first stage the output block is idle: nothing is stored into it, -/
theorem idleOut : ∀ t : Fin cfg0.N, t.val < 25 → cfg0.idle 7 (grid0.coords t) = true := by decide +kernel
/-- and it is not written back there; -/
theorem noFlushOut : ∀ t : Fin cfg0.N, t.val < 25 → (cfg0.win 7).flush t = false := by decide +kernel
/-- in the second stage it is live. -/
theorem liveOut : ∀ t : Fin cfg0.N, 25 ≤ t.val → cfg0.idle 7 (grid0.coords t) = false := by decide +kernel

/-- Each window's current staging buffer at point t, and that it is a whole buffer. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x64 .f32 := win0_7.stage (cfg0.slots t 7)
abbrev hs7 (t : Fin cfg0.N) : (ms7 t).IsWhole := hstage0_7 ((cfg0.slots t 7).cast nbuf0_7)
/-- The two kept arrays: x · W1, and the hidden product's row bands. -/
abbrev keptP : Memref sig .tc .vmem S10000x128 .f32 := Memref.whole cc0_scratch0
abbrev keptQ : Memref sig .tc .vmem S10000x128 .f32 := Memref.whole cc0_scratch1

/-- The offsets of a rank-2 rectangle that starts at the origin. -/
theorem origin2 : (![0, 0] : Fin 2 → ℕ) = fun _ => 0 := by
  funext a; fin_cases a <;> rfl

/-- Loading the whole of a whole buffer that holds x reads x. -/
theorem load_whole {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- The region's plain invariant: the two kept arrays owned at some contents, and the generator register. -/
theorem plainInv_eq (c : Dev nD) :
    (Pipeline.ΦA spec0 c : sProp 𝕄)
      = iprop(iprop((∃ d, owns (c : Thread nD τ) keptP fullShare d) ∗ (∃ d, owns (c : Thread nD τ) keptQ fullShare d)) ∗ (∃ r, prngReg c r)) := by
  unfold Pipeline.ΦA; rw [scopedRest0_eq]; simp only [keptP, keptQ, owns_whole]; try rfl

end Cert.KernelIdeal.Body

end
-- ==== Proof.Ideal.Bands.lean ====
/-
  The second kept array is filled band by band: after the points below n it holds, in rows [400 t, 400 t + 400),
  band t for every t < min n 25, and in its other rows whatever it held before the region. This module states that
  as a property of the array's contents, shows that the band store of point t (rows 400 t onward, all columns)
  extends the property from t to t + 1, that the property no longer changes once all twenty-five bands are in,
  and that with all twenty-five in the array is determined: entry (r, k) is entry (r mod 400, k) of band r / 400.
-/
import proofs.«162829_g15874199126456_cont_week2b_1129_18_alg».proof.Proof.Ideal.Stages
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The bands of the points below n are in their rows. -/
def BandsUpTo (bd : Fin cfg0.N → Vec F S400x128 .f32) (n : ℕ) (q : Vec F S10000x128 .f32) : Prop :=
  ∀ t : Fin cfg0.N, t.val < n → t.val < 25 → ∀ (x : S400x128.Idx) (y : S10000x128.Idx),
    (y (0 : Fin 2)).val = 400 * t.val + (x (0 : Fin 2)).val → (y (1 : Fin 2)).val = (x (1 : Fin 2)).val → q y = bd t x

/-- The array whose row band t is bd t, for t = 0 … 24. -/
def assemble (bd : Fin cfg0.N → Vec F S400x128 .f32) : Vec F S10000x128 .f32 := fun y =>
  bd ⟨(y (0 : Fin 2)).val / 400, by
      have h : (y (0 : Fin 2)).val < 10000 := (y (0 : Fin 2)).isLt
      have hN : cfg0.N = 50 := N_0
      omega⟩
    (ix2 (⟨(y (0 : Fin 2)).val % 400, Nat.mod_lt _ (by decide)⟩ : Fin 400) (⟨(y (1 : Fin 2)).val, (y (1 : Fin 2)).isLt⟩ : Fin 128))

/-- Nothing is asked before the first point. -/
theorem bands_zero (bd : Fin cfg0.N → Vec F S400x128 .f32) (q : Vec F S10000x128 .f32) : BandsUpTo bd 0 q :=
  fun _ h => absurd h (Nat.not_lt_zero _)

/-- Once all twenty-five bands are in, later points add no requirement. -/
theorem bands_mono (bd : Fin cfg0.N → Vec F S400x128 .f32) {n : ℕ} (q : Vec F S10000x128 .f32) (hn : 25 ≤ n)
    (h : BandsUpTo bd n q) : BandsUpTo bd (n + 1) q :=
  fun t _ h25 => h t (by omega) h25

/-- With all twenty-five bands in, the array is the bands assembled. -/
theorem bands_full (bd : Fin cfg0.N → Vec F S400x128 .f32) {n : ℕ} (q : Vec F S10000x128 .f32) (hn : 25 ≤ n)
    (h : BandsUpTo bd n q) : q = assemble bd := by
  funext y
  have h0 : (y (0 : Fin 2)).val < 10000 := (y (0 : Fin 2)).isLt
  exact h _ (show (y (0 : Fin 2)).val / 400 < n by omega) (show (y (0 : Fin 2)).val / 400 < 25 by omega) _ y
    (show (y (0 : Fin 2)).val = 400 * ((y (0 : Fin 2)).val / 400) + (y (0 : Fin 2)).val % 400 by omega) rfl

/-- A store through the whole of a view, last, leaves its payload. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

/-- The band store of point t < 25 (rows 400 · (t mod 25) onward, every column) over contents that have the bands
    below t leaves contents that have the bands below t + 1. -/
theorem bands_store (bd : Fin cfg0.N → Vec F S400x128 .f32) {κ : Kind} {sp : Space} (v : View sig κ sp S10000x128 .f32)
    (f : v.ty.Contents (Elt F)) (t : Fin cfg0.N) (ht : t.val < 25) {off : Fin 2 → ℕ}
    (inb : ∀ a : Fin 2, off a + S400x128.size a ≤ S10000x128.size a) (hoff : off = ![400 * (t.val % 25), 0])
    (h : BandsUpTo bd t.val (v.read (Elt F) f)) :
    BandsUpTo bd (t.val + 1)
      (v.read (Elt F) (v.writes (Elt F) f [(⟨Rect.unit (s := S10000x128) off S400x128.size inb, bd t⟩ : View.Piece (Elt F) S10000x128 .f32)])) := by
  intro t' ht' ht'25 x y hy0 hy1
  have hmod : t.val % 25 = t.val := Nat.mod_eq_of_lt ht
  have hx : (x (0 : Fin 2)).val < 400 := (x (0 : Fin 2)).isLt
  by_cases e : t'.val = t.val
  · obtain rfl : t' = t := Fin.ext e
    exact View.read_writes_cons_rows_of_mem v f inb (bd t') [] y x hoff (by rw [hmod]; exact hy0) hy1
  · rw [View.read_writes_cons_rows_of_not_mem v f inb (bd t) [] y hoff (W := 400) rfl (Or.inl (by rw [hmod]; omega)), View.writes_nil]
    exact h t' (by omega) ht'25 x y hy0 hy1

end Cert.KernelIdeal.Body

end
-- ==== Proof.Ideal.Carried.lean ====
/-
  What the region carries from point to point, and its proof data. Named here, as functions of the argument
  arrays as the region finds them: the product x · W1 (what the first point stores whole), band t of the hidden
  product (what a first-stage point stores, from its row block of adj, x · W1, b1 and the concatenated weights),
  the hidden array assembled from the twenty-five bands, and the output block of a second-stage point (from its
  row block of adj, the assembled hidden array, the concatenated bias and its block of eps). The invariant before
  a point after the first: the first kept array holds x · W1, and the second holds the bands of the points before.
-/
import proofs.«162829_g15874199126456_cont_week2b_1129_18_alg».proof.Proof.Ideal.Bands

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The grid's first point. -/
def pt0 : Fin cfg0.N := ⟨0, by have h : cfg0.N = 50 := N_0; omega⟩

/-- x · W1, as the first point forms it from the whole of x and W1. -/
def prodP (c : Dev nD) : Vec F S10000x128 .f32 := k0_pay1 (iblk m c 1 pt0) (iblk m c 2 pt0)

/-- Band t of the hidden product: relu(adj_block t · (x · W1) + b1) · [W_mu | W_lv]. -/
def band (c : Dev nD) (t : Fin cfg0.N) : Vec F S400x128 .f32 :=
  k0_pay2 (iblk m c 0 t) (prodP m c) (iblk m c 3 t) (iblk m c 4 t)

/-- The hidden product, all twenty-five bands. -/
def hidden (c : Dev nD) : Vec F S10000x128 .f32 := assemble (band m c)

/-- The output block of point t: o[:, :64] + exp(0.5 · o[:, 64:]) · eps_block, o = adj_block · hidden + bias. -/
def outBlock (c : Dev nD) (t : Fin cfg0.N) : Vec F S400x64 .f32 :=
  k0_pay3 (iblk m c 0 t) (hidden m c) (iblk m c 5 t) (iblk m c 6 t)

/-- The invariant before position n: before the first point the plain one (the kept arrays at anything); afterwards
    the first kept array at x · W1, the second at contents holding the bands of the points before n. -/
def Inv (c : Dev nD) : ℕ → sProp 𝕄
  | 0 => Pipeline.ΦA spec0 c
  | n + 1 => iprop(iprop(owns (c : Thread nD τ) keptP fullShare (prodP m c)
      ∗ (∃ q, ⌜BandsUpTo (band m c) (n + 1) q⌝ ∗ owns (c : Thread nD τ) keptQ fullShare q)) ∗ (∃ r, prngReg c r))

theorem Inv_succ (c : Dev nD) (n : ℕ) :
    Inv m c (n + 1) = iprop(iprop(owns (c : Thread nD τ) keptP fullShare (prodP m c)
      ∗ (∃ q, ⌜BandsUpTo (band m c) (n + 1) q⌝ ∗ owns (c : Thread nD τ) keptQ fullShare q)) ∗ (∃ r, prngReg c r)) := rfl

theorem Inv_pos (c : Dev nD) (n : ℕ) (hz : n ≠ 0) :
    Inv m c n = iprop(iprop(owns (c : Thread nD τ) keptP fullShare (prodP m c)
      ∗ (∃ q, ⌜BandsUpTo (band m c) n q⌝ ∗ owns (c : Thread nD τ) keptQ fullShare q)) ∗ (∃ r, prngReg c r)) := by
  cases n with
  | zero => exact absurd rfl hz
  | succ n => rfl

/-- The proof data on core c: the arrays as the region finds them; after the body each input's buffer at its block,
    the output's at the point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := Inv m c t.val
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val := by
  dsimp only [dats]; simp only [Fin.coe_castSucc]

theorem Inv_atSucc (c : Dev nD) (t : Fin cfg0.N) : (dats m 0 c).Φ t.succ = Inv m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is handed at point t: the invariant, what the core owes, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- An input's buffer is returned at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
/-- The output's buffer is returned as found in the first stage, -/
theorem leaves7_idle (c : Dev nD) (t : Fin cfg0.N) (h : t.val < 25) :
    (dats m 0 c).leavesExact 7 t = iprop(∃ d, owns (c : Thread nD τ) (ms7 t) fullShare ((dats m 0 c).before 7 t d)) :=
  Dat.leavesExact_idle (dats m 0 c) 7 t (idleOut t h) (noFlushOut t h)
/-- and at the point's output block in the second. -/
theorem leaves7_live (c : Dev nD) (t : Fin cfg0.N) (h : 25 ≤ t.val) :
    (dats m 0 c).leavesExact 7 t = owns (c : Thread nD τ) (ms7 t) fullShare (outBlock m c t) := by
  unfold Dat.leavesExact; rw [liveOut t h, after7]

end Cert.KernelIdeal.Body

end
-- ==== Proof.Ideal.StepFirst.lean ====
/-
  The body at the first point (grid coordinate 0): it forms x · W1 from the whole of x and W1 and stores it
  whole into the first kept array; then, reading that product back, the first row block of adj, the bias row b1
  and the concatenated weights, it stores row band 0 of  relu(adj · (x · W1) + b1) · [W_mu | W_lv]  into rows
  [0, 400) of the second kept array, over what that array held.
-/
import proofs.«162829_g15874199126456_cont_week2b_1129_18_alg».proof.Proof.Ideal.Stages

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point's body as a triple: the first kept array ends with the stores the run lists written over
    anything, the second at its previous contents with the listed stores written over them. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    Σ' (L9 : List (View.Piece (Elt F) S10000x128 .f32)), { L10 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg9 fullShare d) ∗ owns (c : Thread nD τ) arg10 fullShare q
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread q) L10)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%d9, %f9, -, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg10.eq_unread hf10
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]; · iexists _; iexact H9
    iexact H10

/-- The first point's store into the first kept array: the whole array at x · W1. -/
theorem runFirst_prod (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    (runFirst c i arg1 harg1 arg2 harg2 arg3 harg3 arg4 harg4 arg5 harg5 arg6 harg6 arg7 harg7 arg8 harg8 arg9 harg9 arg10 harg10 h1 h2 h3 x0 x1 x2 x3 x4 q).1
      = [⟨Rect.unit (s := S10000x128) ![0, 0] S10000x128.size inb_S10000x128_S10000x128_0_0, k0_pay1 x1 x2⟩] := by
  unfold runFirst; dsimp only; sl_unfold_run_names
  rw [load_whole arg2 harg2 origin2, load_whole arg3 harg3 origin2]

/-- Its store into the second: band 0, formed from the product just stored, at the offsets the body computes. -/
theorem runFirst_band (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : condFirst i) (h2 : condBand i) (h3 : ¬condOut i)
    (x0 : Vec F S400x10000 .f32) (x1 : Vec F S10000x128 .f32) (x2 : Vec F S128x128 .f32) (x3 : Vec F S1x128 .f32) (x4 : Vec F S128x128 .f32) (q : Vec F S10000x128 .f32) :
    (runFirst c i arg1 harg1 arg2 harg2 arg3 harg3 arg4 harg4 arg5 harg5 arg6 harg6 arg7 harg7 arg8 harg8 arg9 harg9 arg10 harg10 h1 h2 h3 x0 x1 x2 x3 x4 q).2.1
      = [⟨Rect.unit (s := S10000x128) (k0_off1 i) S400x128.size (k0_off1_inb i h2), k0_pay2 x0 (k0_pay1 x1 x2) x3 x4⟩] := by
  unfold runFirst; dsimp only; sl_unfold_run_names
  rw [View.readCov_unit_zero arg9.view origin2, load_whole arg2 harg2 origin2, load_whole arg3 harg3 origin2,
    load_whole arg1 harg1 origin2, load_whole arg4 harg4 origin2, load_whole arg5 harg5 origin2]

end Cert.KernelIdeal.Body

end
-- ==== Proof.Ideal.SoundFirst.lean ====
/-
  The body's obligation at the first point. The plain invariant hands the body the two kept arrays at anything;
  the run stores x · W1 whole into the first and band 0 into the second, which establishes the invariant of the
  later points with one band in; the output buffer, idle here, is handed back as found.
-/
import proofs.«162829_g15874199126456_cont_week2b_1129_18_alg».proof.Proof.Ideal.Carried
import proofs.«162829_g15874199126456_cont_week2b_1129_18_alg».proof.Proof.Ideal.StepFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_first (c : Dev nD) :
    bodyPre m c pt0 ⊢ wp frame (wpE (defs₀ (F := F)) Variants.none c none) Set.univ (bodyAt0 pt0) (fun _ => bodyPost m c pt0) := by
  have hlt : (pt0 : Fin cfg0.N).val < 25 := Nat.zero_lt_succ _
  unfold bodyPre bodyPost bodyAt0
  simp only [before0, before1, before2, before3, before4, before5, before6]
  rw [show (dats m 0 c).owesAt () (Fin.succ pt0) = (dats m 0 c).owesAt () (Fin.castSucc pt0) from rfl]
  rw [Inv_atSucc, Inv_succ, Inv_castSucc, show Inv m c (pt0 : Fin cfg0.N).val = Pipeline.ΦA spec0 c from rfl, plainInv_eq]
  rw [leaves0, leaves1, leaves2, leaves3, leaves4, leaves5, leaves6, leaves7_idle m c pt0 hlt]
  have hF : condFirst (grid0.coords pt0) := (hcondFirst pt0).mpr rfl
  have hB : condBand (grid0.coords pt0) := (hcondBand pt0).mpr hlt
  have hO : ¬condOut (grid0.coords pt0) := fun h => by have := (hcondOut pt0).mp h; omega
  iintro ⟨⟨⟨⟨%dp, HP⟩, ⟨%dq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) keptP (Memref.isWhole_whole _) keptQ (Memref.isWhole_whole _) hF hB hO (iblk m c 0 pt0) (iblk m c 1 pt0) (iblk m c 2 pt0) (iblk m c 3 pt0) (iblk m c 4 pt0) dq).2.2 Set.univ _)
  isplitl [H0]; · iexact H0
  isplitl [H1]; · iexact H1
  isplitl [H2]; · iexact H2
  isplitl [H3]; · iexact H3
  isplitl [H4]; · iexact H4
  isplitl [HP]; · iexists _; iexact HP
  isplitl [HQ]; · iexact HQ
  iintro ⟨H0, H1, H2, H3, H4, ⟨%f9, HP⟩, HQ⟩
  isplitl [HP HQ Hg]
  · isplitl [HP HQ]
    · isplitl [HP]
      · unfold owns; iexists _; isplitr
        swap; · iexact HP
        ipureintro
        rw [runFirst_prod]
        exact read_store_whole _ _ origin2 _ _ _
      iexists _; isplitr
      swap
      · unfold owns; iexists _; isplitr
        swap; · iexact HQ
        ipureintro; rfl
      ipureintro
      rw [runFirst_band]
      exact bands_store (band m c) keptQ.view _ pt0 hlt _ (bandOffset pt0) (bands_zero _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Body

end
-- ==== Proof.Ideal.StepBand.lean ====
/-
  The body at a point of the first stage after the first (grid coordinate from 1 to 24): it reads the current
  row block of adj, the kept product x · W1, the bias row b1 and the concatenated weights, and stores the row band
  relu(adj_block · (x · W1) + b1) · [W_mu | W_lv]  into rows [400 t, 400 t + 400) of the second kept array, over
  what that array held; nothing else changes.
-/
import proofs.«162829_g15874199126456_cont_week2b_1129_18_alg».proof.Proof.Ideal.Stages

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The band-storing body as a triple: the second kept array ends at its previous contents with the stores the
    run lists written over them (one store: the band). -/
noncomputable def runBand (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : condBand i) (h3 : ¬condOut i)
    (x0 : Vec F S400x10000 .f32) (x3 : Vec F S1x128 .f32) (x4 : Vec F S128x128 .f32) (p : Vec F S10000x128 .f32) (q : Vec F S10000x128 .f32) :
    { L10 : List (View.Piece (Elt F) S10000x128 .f32) //
      ∀ (E : Set ℕ) (K : PUnit → sProp 𝕄),
        iprop(owns (c : Thread nD τ) arg1 fullShare x0 ∗ owns (c : Thread nD τ) arg4 fullShare x3 ∗ owns (c : Thread nD τ) arg5 fullShare x4
            ∗ owns (c : Thread nD τ) arg9 fullShare p ∗ owns (c : Thread nD τ) arg10 fullShare q
            ∗ (iprop(owns (c : Thread nD τ) arg1 fullShare x0 ∗ owns (c : Thread nD τ) arg4 fullShare x3 ∗ owns (c : Thread nD τ) arg5 fullShare x4
                ∗ owns (c : Thread nD τ) arg9 fullShare p
                ∗ (arg10.view.loc (c : Thread nD τ) ↦[arg10.view.set]{fullShare} arg10.view.writes (Elt F) (harg10.unread q) L10)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f1, %hf1, H1⟩, ⟨%f4, %hf4, H4⟩, ⟨%f5, %hf5, H5⟩, ⟨%f9, %hf9, H9⟩, ⟨%f10, %hf10, H10⟩, Hk⟩
    obtain rfl := harg1.eq_unread hf1; obtain rfl := harg4.eq_unread hf4; obtain rfl := harg5.eq_unread hf5
    obtain rfl := harg9.eq_unread hf9; obtain rfl := harg10.eq_unread hf10
    sl_exec (disch := first | exact h1 | exact h2 | exact h3)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    iexact H10

/-- The one store of such a point: the band, at the offsets the body computes. -/
theorem runBand_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : condBand i) (h3 : ¬condOut i)
    (x0 : Vec F S400x10000 .f32) (x3 : Vec F S1x128 .f32) (x4 : Vec F S128x128 .f32) (p : Vec F S10000x128 .f32) (q : Vec F S10000x128 .f32) :
    (runBand c i arg1 harg1 arg2 harg2 arg3 harg3 arg4 harg4 arg5 harg5 arg6 harg6 arg7 harg7 arg8 harg8 arg9 harg9 arg10 harg10 h1 h2 h3 x0 x3 x4 p q).1
      = [⟨Rect.unit (s := S10000x128) (k0_off1 i) S400x128.size (k0_off1_inb i h2), k0_pay2 x0 p x3 x4⟩] := by
  unfold runBand; dsimp only
  rw [load_whole arg1 harg1 origin2, load_whole arg9 harg9 origin2, load_whole arg4 harg4 origin2, load_whole arg5 harg5 origin2]

end Cert.KernelIdeal.Body

end
-- ==== Proof.Ideal.SoundBand.lean ====
/-
  The body's obligation at a first-stage point after the first. The invariant gives the first kept array at
  x · W1 and the second with the bands of the earlier points; the run stores this point's band over them, which
  extends the bands by one; the output buffer, idle here, is handed back as found.
-/
import proofs.«162829_g15874199126456_cont_week2b_1129_18_alg».proof.Proof.Ideal.Carried
import proofs.«162829_g15874199126456_cont_week2b_1129_18_alg».proof.Proof.Ideal.StepBand

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_band (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () (Fin.succ t) = (dats m 0 c).owesAt () (Fin.castSucc t) from rfl]
  rw [Inv_atSucc, Inv_succ, Inv_castSucc, Inv_pos m c t.val h0]
  rw [leaves0, leaves1, leaves2, leaves3, leaves4, leaves5, leaves6, leaves7_idle m c t h25]
  have hF : ¬condFirst (grid0.coords t) := fun h => h0 ((hcondFirst t).mp h)
  have hB : condBand (grid0.coords t) := (hcondBand t).mpr h25
  have hO : ¬condOut (grid0.coords t) := fun h => by have := (hcondOut t).mp h; omega
  iintro ⟨⟨⟨HP, ⟨%q, %hq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runBand c (grid0.coords t) (ms0 t) (hs0 t) (ms1 t) (hs1 t) (ms2 t) (hs2 t) (ms3 t) (hs3 t) (ms4 t) (hs4 t) (ms5 t) (hs5 t) (ms6 t) (hs6 t) (ms7 t) (hs7 t) keptP (Memref.isWhole_whole _) keptQ (Memref.isWhole_whole _) hF hB hO (iblk m c 0 t) (iblk m c 3 t) (iblk m c 4 t) (prodP m c) q).2 Set.univ _)
  isplitl [H0]; · iexact H0
  isplitl [H3]; · iexact H3
  isplitl [H4]; · iexact H4
  isplitl [HP]; · iexact HP
  isplitl [HQ]; · iexact HQ
  iintro ⟨H0, H3, H4, HP, HQ⟩
  isplitl [HP HQ Hg]
  · isplitl [HP HQ]
    · isplitl [HP]; · iexact HP
      iexists _; isplitr
      swap
      · unfold owns; iexists _; isplitr
        swap; · iexact HQ
        ipureintro; rfl
      ipureintro
      rw [runBand_pieces]
      exact bands_store (band m c) keptQ.view _ t h25 _ (bandOffset t)
        (by rw [Memref.IsWhole.read_unread]; exact hq)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Body

end
-- ==== Proof.Ideal.StepOut.lean ====
/-
  The body at a point of the second stage (grid coordinate at least 25): it reads the current row block of adj,
  the whole kept array of hidden row bands, the concatenated bias row and the current block of eps, and stores
  the output block  o[:, :64] + exp(0.5 · o[:, 64:]) · eps  with  o = adj_block · kept + bias  whole; the two
  kept arrays and every input buffer are left as they were.
-/
import proofs.«162829_g15874199126456_cont_week2b_1129_18_alg».proof.Proof.Ideal.Stages

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The second-stage body as a triple: from the four buffers it reads at their contents and the output block's
    buffer at anything, it runs to the same four and the output buffer with one whole-block store of the
    stage's value written (the list of stores is found by the run). -/
noncomputable def runOut (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : ¬condBand i) (h3 : condOut i)
    (x0 : Vec F S400x10000 .f32) (x5 : Vec F S1x128 .f32) (x6 : Vec F S400x64 .f32) (q : Vec F S10000x128 .f32) :
    { L8 : List (View.Piece (Elt F) S400x64 .f32) //
      ∀ (E : Set ℕ) (K : PUnit → sProp 𝕄),
        iprop(owns (c : Thread nD τ) arg1 fullShare x0 ∗ owns (c : Thread nD τ) arg6 fullShare x5 ∗ owns (c : Thread nD τ) arg7 fullShare x6
            ∗ (∃ d, owns (c : Thread nD τ) arg8 fullShare d) ∗ owns (c : Thread nD τ) arg10 fullShare q
            ∗ (iprop(owns (c : Thread nD τ) arg1 fullShare x0 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ owns (c : Thread nD τ) arg10 fullShare q) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f1, %hf1, H1⟩, ⟨%f6, %hf6, H6⟩, ⟨%f7, %hf7, H7⟩, ⟨%d8, %f8, -, H8⟩, ⟨%f10, %hf10, H10⟩, Hk⟩
    obtain rfl := harg1.eq_unread hf1; obtain rfl := harg6.eq_unread hf6; obtain rfl := harg7.eq_unread hf7
    obtain rfl := harg10.eq_unread hf10
    sl_exec (disch := first | exact h1 | exact h2 | exact h3)
    sl_step
    iapply Hk
    isplitl [H1]
    · iexists _; isplitr; · ipureintro; exact harg1.read_unread _
      iexact H1
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg10.read_unread _
    iexact H10

/-- The one store of the second stage: the whole output block at the stage's value. -/
theorem runOut_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x128 .f32) (harg10 : arg10.IsWhole)
    (h1 : ¬condFirst i) (h2 : ¬condBand i) (h3 : condOut i)
    (x0 : Vec F S400x10000 .f32) (x5 : Vec F S1x128 .f32) (x6 : Vec F S400x64 .f32) (q : Vec F S10000x128 .f32) :
    (runOut c i arg1 harg1 arg2 harg2 arg3 harg3 arg4 harg4 arg5 harg5 arg6 harg6 arg7 harg7 arg8 harg8 arg9 harg9 arg10 harg10 h1 h2 h3 x0 x5 x6 q).1
      = [⟨Rect.unit (s := S400x64) ![0, 0] S400x64.size inb_S400x64_S400x64_0_0, k0_pay3 x0 q x5 x6⟩] := by
  unfold runOut; dsimp only
  rw [load_whole arg1 harg1 origin2, load_whole arg10 harg10 origin2, load_whole arg6 harg6 origin2, load_whole arg7 harg7 origin2]

end Cert.KernelIdeal.Body

end
-- ==== Proof.Ideal.SoundOut.lean ====
/-
  The body's obligation at a point of the second stage. The invariant says the second kept array holds all
  twenty-five bands, so it is the assembled hidden array; the stage's run then leaves the output buffer at the
  point's output block, and the kept arrays and the inputs as they were.
-/
import proofs.«162829_g15874199126456_cont_week2b_1129_18_alg».proof.Proof.Ideal.Carried
import proofs.«162829_g15874199126456_cont_week2b_1129_18_alg».proof.Proof.Ideal.StepOut

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option maxHeartbeats 4000000 in
theorem sound_out (c : Dev nD) (t : Fin cfg0.N) (h25 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () (Fin.succ t) = (dats m 0 c).owesAt () (Fin.castSucc t) from rfl]
  rw [Inv_atSucc, Inv_succ, Inv_castSucc, Inv_pos m c t.val (by omega)]
  rw [leaves0, leaves1, leaves2, leaves3, leaves4, leaves5, leaves6, leaves7_live m c t h25]
  have hF : ¬condFirst (grid0.coords t) := fun h => by have := (hcondFirst t).mp h; omega
  have hB : ¬condBand (grid0.coords t) := fun h => by have := (hcondBand t).mp h; omega
  have hO : condOut (grid0.coords t) := (hcondOut t).mpr h25
  iintro ⟨⟨⟨HP, ⟨%q, %hq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hqe : q = hidden m c := bands_full (band m c) q h25 hq
  subst hqe
  iapply ((runOut c (grid0.coords t) (ms0 t) (hs0 t) (ms1 t) (hs1 t) (ms2 t) (hs2 t) (ms3 t) (hs3 t) (ms4 t) (hs4 t) (ms5 t) (hs5 t) (ms6 t) (hs6 t) (ms7 t) (hs7 t) keptP (Memref.isWhole_whole _) keptQ (Memref.isWhole_whole _) hF hB hO (iblk m c 0 t) (iblk m c 5 t) (iblk m c 6 t) (hidden m c)).2 Set.univ _)
  isplitl [H0]; · iexact H0
  isplitl [H5]; · iexact H5
  isplitl [H6]; · iexact H6
  isplitl [H7]; · iexists _; iexact H7
  isplitl [HQ]; · iexact HQ
  iintro ⟨H0, H5, H6, ⟨%f8, H7⟩, HQ⟩
  isplitl [HP HQ Hg]
  · isplitl [HP HQ]
    · isplitl [HP]; · iexact HP
      iexists _; isplitr
      · ipureintro; exact bands_mono (band m c) _ h25 hq
      iexact HQ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [runOut_pieces]
  exact read_store_whole _ _ origin2 _ _ _

end Cert.KernelIdeal.Body

end
-- ==== Proof.Ideal.Region.lean ====
/-
  The region's run. At every point the body's obligation is one of the three stage obligations, by the point's
  position; the plain invariant is the invariant before the first point, and after the last point the named
  contents of the two kept arrays are forgotten again. So every weakly fair execution of the program terminates
  without fault, every array of the pipeline ends at what the proof data computes, and the argument arrays end
  as launched.
-/
import proofs.«162829_g15874199126456_cont_week2b_1129_18_alg».proof.Proof.Ideal.SoundFirst
import proofs.«162829_g15874199126456_cont_week2b_1129_18_alg».proof.Proof.Ideal.SoundBand
import proofs.«162829_g15874199126456_cont_week2b_1129_18_alg».proof.Proof.Ideal.SoundOut

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The body at any point: the first point, a later first-stage point, or a second-stage point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = pt0 := Fin.ext h0
    exact sound_first m c
  · by_cases h25 : t.val < 25
    · exact sound_band m c t h0 h25
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the plain one back: the kept arrays' named contents are forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last]; have : cfg0.N = 50 := N_0; omega), plainInv_eq]
  iintro ⟨⟨HP, ⟨%q, -, HQ⟩⟩, Hg⟩
  isplitl [HP HQ]
  · isplitl [HP]
    · iexists _; iexact HP
    iexists _; iexact HQ
  iexact Hg

set_option backward.isDefEq.respectTransparency.types false in
/-- Every weakly fair execution of the program terminates, and every final state has each array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.Spec.lean ====
/-
  The graph encoder as plain sums over the extended reals. For an adjacency array adj [10000, 10000], features
  x [10000, 128], weights W1 [128, 128] with bias b1 [128], and two heads W [128, 64] with bias b [64]:

    xw (n, l)   = Σ_a x (n, a) · W1 (a, l)
    hid (j, l)  = max (Σ_n adj (j, n) · xw (n, l) + b1 l) 0
    head W b (r, k) = Σ_j adj (r, j) · (Σ_l hid (j, l) · W (l, k)) + b k
    z (r, k)    = head W_mu b_mu (r, k) + exp (1/2 · head W_lv b_lv (r, k)) · eps (r, k)

  The two float constants are kept as the binary words the programs spell (the zero word and the word of one half);
  both programs carry the same words, so neither is ever evaluated. Also here: the two weight arrays laid side by
  side, and the two biases end to end, which is how one of the programs holds them.
-/
import Idealize.ShloMosaic.PureOps.Ideal
import Idealize.ShloMosaic.Lib.ValueIdx

noncomputable section

namespace Cert.Encoder

open Idealize.ShloMosaic Idealize.ShloMosaic.ValueIdx
open scoped BigOperators

/-- A rank-2 and a rank-1 shape by their extents. -/
abbrev A2 (a b : ℕ) : Shape := ⟨2, ![a, b]⟩
abbrev A1 (a : ℕ) : Shape := ⟨1, ![a]⟩

/-- The zero word and the word of one half, read on the extended reals. -/
abbrev zeroW : EReal := Ideal.ofBits .f32 0x00000000#32
abbrev halfW : EReal := Ideal.ofBits .f32 0x3F000000#32

variable (adj : (A2 10000 10000).Idx → EReal) (x : (A2 10000 128).Idx → EReal) (W1 : (A2 128 128).Idx → EReal)
  (b1 : (A1 128).Idx → EReal)

/-- x · W1. -/
def xw (n : Fin 10000) (l : Fin 128) : EReal := ∑ a : Fin 128, x (ix2 n a) * W1 (ix2 a l)

/-- The hidden layer: relu (adj · (x · W1) + b1). -/
def hid (j : Fin 10000) (l : Fin 128) : EReal :=
  max (∑ n : Fin 10000, adj (ix2 j n) * xw x W1 n l + b1 (ix1 l)) zeroW

/-- One propagated head: adj · (hid · W) + b. -/
def head (W : (A2 128 64).Idx → EReal) (b : (A1 64).Idx → EReal) (r : Fin 10000) (k : Fin 64) : EReal :=
  ∑ j : Fin 10000, adj (ix2 r j) * (∑ l : Fin 128, hid adj x W1 b1 j l * W (ix2 l k)) + b (ix1 k)

/-- The sample: mean head plus exp (half the log-variance head) times the noise. -/
def z (Wmu : (A2 128 64).Idx → EReal) (bmu : (A1 64).Idx → EReal) (Wlv : (A2 128 64).Idx → EReal) (blv : (A1 64).Idx → EReal)
    (eps : (A2 10000 64).Idx → EReal) (r : Fin 10000) (k : Fin 64) : EReal :=
  head adj x W1 b1 Wmu bmu r k + Ideal.exp (halfW * head adj x W1 b1 Wlv blv r k) * eps (ix2 r k)

/-- Column k of the two weight arrays side by side: the first below 64, the second from 64 on. -/
def sideBySide (Wmu Wlv : (A2 128 64).Idx → EReal) (l : Fin 128) (k : Fin 128) : EReal :=
  if h : k.val < 64 then Wmu (ix2 l ⟨k.val, h⟩) else Wlv (ix2 l ⟨k.val - 64, by have := k.isLt; omega⟩)

/-- Entry k of the two biases end to end. -/
def endToEnd (bmu blv : (A1 64).Idx → EReal) (k : Fin 128) : EReal :=
  if h : k.val < 64 then bmu (ix1 ⟨k.val, h⟩) else blv (ix1 ⟨k.val - 64, by have := k.isLt; omega⟩)

/-- The fused head: column k < 64 is the mean head's column k, column k + 64 the log-variance head's. -/
def fused (Wmu : (A2 128 64).Idx → EReal) (bmu : (A1 64).Idx → EReal) (Wlv : (A2 128 64).Idx → EReal) (blv : (A1 64).Idx → EReal)
    (r : Fin 10000) (k : Fin 128) : EReal :=
  ∑ j : Fin 10000, adj (ix2 r j) * (∑ l : Fin 128, hid adj x W1 b1 j l * sideBySide Wmu Wlv l k) + endToEnd bmu blv k

theorem fused_low (Wmu : (A2 128 64).Idx → EReal) (bmu : (A1 64).Idx → EReal) (Wlv : (A2 128 64).Idx → EReal) (blv : (A1 64).Idx → EReal)
    (r : Fin 10000) (k : Fin 64) :
    fused adj x W1 b1 Wmu bmu Wlv blv r ⟨k.val, by have := k.isLt; omega⟩ = head adj x W1 b1 Wmu bmu r k := by
  unfold fused head sideBySide endToEnd
  simp only [dif_pos k.isLt]

theorem fused_high (Wmu : (A2 128 64).Idx → EReal) (bmu : (A1 64).Idx → EReal) (Wlv : (A2 128 64).Idx → EReal) (blv : (A1 64).Idx → EReal)
    (r : Fin 10000) (k : Fin 64) :
    fused adj x W1 b1 Wmu bmu Wlv blv r ⟨k.val + 64, by have := k.isLt; omega⟩ = head adj x W1 b1 Wlv blv r k := by
  unfold fused head sideBySide endToEnd
  have h : ¬ (k.val + 64 < 64) := by omega
  simp only [dif_neg h, Nat.add_sub_cancel]

end Cert.Encoder

end
-- ==== Proof.Ideal.Payloads.lean ====
/-
  The three values the kernel body stores, read at an index on the extended reals, over any vectors of the
  loaded shapes. The first is the product x · W1. The second is a row band of relu (A · P + b) · W, for a row block
  A of adj, the kept product P, the bias row b and the side-by-side weights W. The third is a row block of
  o[:, :64] + exp (1/2 · o[:, 64:]) · e with o = A · Q + b, for the kept hidden array Q, the end-to-end bias row b
  and a block e of the noise. Each matrix product into the zero accumulator is a plain sum; the bias row is
  repeated along the rows; the two halves of o are its columns k and k + 64.
-/
import proofs.«162829_g15874199126456_cont_week2b_1129_18_alg».proof.Proof.Gen.KernelIdeal.Skeleton
import proofs.«162829_g15874199126456_cont_week2b_1129_18_alg».proof.Proof.LibMatmulPlain
import proofs.«162829_g15874199126456_cont_week2b_1129_18_alg».proof.Proof.Spec
import Idealize.ShloMosaic.Lib.Pipeline.Value
import Idealize.ShloMosaic.Lib.ValueLayout
import Idealize.ShloMosaic.Lib.ValueIdx

noncomputable section

namespace Cert.KernelIdeal.Payloads

open Cert.KernelIdeal Cert.KernelIdeal.Gen Cert.Encoder
open Idealize.ShloMosaic Idealize.ShloMosaic.ValueIdx Idealize.ShloMosaic.TcCoe
open scoped BigOperators

/-- Column k of the first half, and column k + 64 of the second, of a 128-wide row. -/
abbrev lo (k : Fin 64) : Fin 128 := ⟨k.val, by have := k.isLt; omega⟩
abbrev hi (k : Fin 64) : Fin 128 := ⟨k.val + 64, by have := k.isLt; omega⟩

/-- x · W1 at (n, l). -/
theorem pay1_apply (x1 : FVec Ideal S10000x128 .f32) (x2 : FVec Ideal S128x128 .f32) (n : Fin 10000) (l : Fin 128) :
    k0_pay1 (F := Ideal) x1 x2 (ix2 n l) = ∑ a : Fin 128, x1 (ix2 n a) * x2 (ix2 a l) := by
  unfold k0_pay1
  rw [shapeCast_self]
  exact Cert.LibMatmulPlain.matmul_plain_zero_apply none x1 x2 n l

/-- A row block times a kept array, plus a bias row repeated along the rows, at (r, k). -/
theorem affine_apply (x0 : FVec Ideal S400x10000 .f32) (q : FVec Ideal S10000x128 .f32) (b : FVec Ideal S1x128 .f32)
    (r : Fin 400) (k : Fin 128) :
    addf (matmul (F := Ideal) dot_S400x10000_S10000x128_S400x128_1_0_0_1_n_n none x0 q (constant (F := Ideal) S400x128 .f32 0x00000000#32))
        (broadcastTo S400x128 (shapeCast S1x128 b shapeCasts_S1x128_S1x128) broadcasts_S1x128_S400x128) (ix2 r k)
      = ∑ j : Fin 10000, x0 (ix2 r j) * q (ix2 j k) + b (ix2 (0 : Fin 1) k) := by
  rw [addf_apply, shapeCast_self, broadcastTo_1b_ab_apply]
  exact congrArg (· + b (ix2 (0 : Fin 1) k)) (Cert.LibMatmulPlain.matmul_plain_zero_apply none x0 q r k)

/-- The band relu (A · P + b) · W at (r, k). -/
theorem pay2_apply (x0 : FVec Ideal S400x10000 .f32) (p : FVec Ideal S10000x128 .f32) (x3 : FVec Ideal S1x128 .f32)
    (x4 : FVec Ideal S128x128 .f32) (r : Fin 400) (k : Fin 128) :
    k0_pay2 (F := Ideal) x0 p x3 x4 (ix2 r k)
      = ∑ l : Fin 128, max (∑ n : Fin 10000, x0 (ix2 r n) * p (ix2 n l) + x3 (ix2 (0 : Fin 1) l)) zeroW * x4 (ix2 l k) := by
  unfold k0_pay2
  simp only [shapeCast_self]
  refine (Cert.LibMatmulPlain.matmul_plain_zero_apply none _ x4 r k).trans ?_
  refine Finset.sum_congr rfl fun l _ => ?_
  rw [maximumf_apply]
  have e := affine_apply x0 p x3 r l
  simp only [shapeCast_self] at e
  rw [e]
  rfl

/-- The left half of a 128-wide block at (r, k) is its column k, -/
theorem slice_lo (v : FVec Ideal S400x128 .f32) (r : Fin 400) (k : Fin 64) :
    extractStridedSlice S400x64 ![0, 0] v slices_S400x128_o0_0_S400x64 (ix2 r k) = v (ix2 r (lo k)) :=
  extractStridedSlice_apply _ v _ (ix2 r k) (ix2 r (lo k)) fun a => by
    match a with
    | ⟨0, _⟩ => exact (Nat.zero_add _).symm
    | ⟨1, _⟩ => exact (Nat.zero_add _).symm

/-- and the right half its column k + 64. -/
theorem slice_hi (v : FVec Ideal S400x128 .f32) (r : Fin 400) (k : Fin 64) :
    extractStridedSlice S400x64 ![0, 64] v slices_S400x128_o0_64_S400x64 (ix2 r k) = v (ix2 r (hi k)) :=
  extractStridedSlice_apply _ v _ (ix2 r k) (ix2 r (hi k)) fun a => by
    match a with
    | ⟨0, _⟩ => exact (Nat.zero_add _).symm
    | ⟨1, _⟩ => exact Nat.add_comm _ _

/-- The sample's pointwise tail over a 128-wide block o and a noise block e, at (r, k):
    o (r, k) + exp (1/2 · o (r, k + 64)) · e (r, k). -/
theorem sample_apply (o : FVec Ideal S400x128 .f32) (e : FVec Ideal S400x64 .f32) (r : Fin 400) (k : Fin 64) :
    addf (extractStridedSlice S400x64 ![0, 0] o slices_S400x128_o0_0_S400x64)
        (mulf (exp (mulf (broadcast S400x64 (FloatOps.ofBits (F := Ideal) .f32 0x3F000000#32))
          (extractStridedSlice S400x64 ![0, 64] o slices_S400x128_o0_64_S400x64))) e) (ix2 r k)
      = o (ix2 r (lo k)) + Ideal.exp (halfW * o (ix2 r (hi k))) * e (ix2 r k) := by
  show extractStridedSlice S400x64 ![0, 0] o slices_S400x128_o0_0_S400x64 (ix2 r k)
      + Ideal.exp (halfW * extractStridedSlice S400x64 ![0, 64] o slices_S400x128_o0_64_S400x64 (ix2 r k)) * e (ix2 r k) = _
  rw [slice_lo, slice_hi]

/-- The output block o[:, :64] + exp (1/2 · o[:, 64:]) · e at (r, k). -/
theorem pay3_apply (x0 : FVec Ideal S400x10000 .f32) (q : FVec Ideal S10000x128 .f32) (x5 : FVec Ideal S1x128 .f32)
    (x6 : FVec Ideal S400x64 .f32) (r : Fin 400) (k : Fin 64) :
    k0_pay3 (F := Ideal) x0 q x5 x6 (ix2 r k)
      = (∑ j : Fin 10000, x0 (ix2 r j) * q (ix2 j (lo k)) + x5 (ix2 (0 : Fin 1) (lo k)))
        + Ideal.exp (halfW * (∑ j : Fin 10000, x0 (ix2 r j) * q (ix2 j (hi k)) + x5 (ix2 (0 : Fin 1) (hi k)))) * x6 (ix2 r k) := by
  unfold k0_pay3
  refine (sample_apply _ x6 r k).trans ?_
  rw [affine_apply x0 q x5 r (lo k), affine_apply x0 q x5 r (hi k)]

/-! The same three, with what each operand reads at the indices used given as hypotheses. -/

theorem pay1_eq (x1 : FVec Ideal S10000x128 .f32) (x2 : FVec Ideal S128x128 .f32) (n : Fin 10000) (l : Fin 128)
    (X : Fin 128 → EReal) (W : Fin 128 → EReal) (h1 : ∀ a, x1 (ix2 n a) = X a) (h2 : ∀ a, x2 (ix2 a l) = W a) :
    k0_pay1 (F := Ideal) x1 x2 (ix2 n l) = ∑ a : Fin 128, X a * W a := by
  rw [pay1_apply]; simp only [h1, h2]

theorem pay2_eq (x0 : FVec Ideal S400x10000 .f32) (p : FVec Ideal S10000x128 .f32) (x3 : FVec Ideal S1x128 .f32)
    (x4 : FVec Ideal S128x128 .f32) (r : Fin 400) (k : Fin 128)
    (A : Fin 10000 → EReal) (P : Fin 10000 → Fin 128 → EReal) (B : Fin 128 → EReal) (W : Fin 128 → EReal)
    (h0 : ∀ n, x0 (ix2 r n) = A n) (hp : ∀ n l, p (ix2 n l) = P n l) (h3 : ∀ l, x3 (ix2 (0 : Fin 1) l) = B l)
    (h4 : ∀ l, x4 (ix2 l k) = W l) :
    k0_pay2 (F := Ideal) x0 p x3 x4 (ix2 r k) = ∑ l : Fin 128, max (∑ n : Fin 10000, A n * P n l + B l) zeroW * W l := by
  rw [pay2_apply]; simp only [h0, hp, h3, h4]

theorem pay3_eq (x0 : FVec Ideal S400x10000 .f32) (q : FVec Ideal S10000x128 .f32) (x5 : FVec Ideal S1x128 .f32)
    (x6 : FVec Ideal S400x64 .f32) (r : Fin 400) (k : Fin 64)
    (A : Fin 10000 → EReal) (Q : Fin 10000 → Fin 128 → EReal) (B : Fin 128 → EReal) (E : EReal)
    (h0 : ∀ n, x0 (ix2 r n) = A n) (hq : ∀ j k', q (ix2 j k') = Q j k') (h5 : ∀ k', x5 (ix2 (0 : Fin 1) k') = B k')
    (h6 : x6 (ix2 r k) = E) :
    k0_pay3 (F := Ideal) x0 q x5 x6 (ix2 r k)
      = (∑ j : Fin 10000, A j * Q j (lo k) + B (lo k)) + Ideal.exp (halfW * (∑ j : Fin 10000, A j * Q j (hi k) + B (hi k))) * E := by
  rw [pay3_apply]; simp only [h0, hq, h5, h6]

end Cert.KernelIdeal.Payloads

end
-- ==== Proof.Ideal.Blocks.lean ====
/-
  Where the body's loads come from. Window 0's block at point t is rows [400 · (t mod 25), + 400) of adj; windows
  1 and 2 are the whole of x and W1; window 6's block at a second-stage point t is rows [400 · (t - 25), + 400) of
  eps. Windows 3, 4 and 5 hold arrays the program's first lines wrote before the region: b1 as a one-row array, the
  two head weights side by side, the two head biases end to end as a one-row array; each is read here at an index.
-/
import proofs.«162829_g15874199126456_cont_week2b_1129_18_alg».proof.Proof.Gen.KernelIdeal.Frame
import proofs.«162829_g15874199126456_cont_week2b_1129_18_alg».proof.Proof.Spec
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.Encoder
open Idealize.ShloMosaic Idealize.ShloMosaic.ValueIdx Idealize.ShloMosaic.TcCoe Idealize.SL.Sem Idealize.ShloMosaic.StableHlo
open scoped BigOperators

variable (m : (ℓ : Loc nD τ sig) → Buf (Elt Ideal) ℓ)

/-- The printed index maps over the grid: window 0 follows t mod 25; windows 1 to 5 stay at the origin; windows 6
    and 7 stay at block 0 through the first stage and follow t mod 25 in the second. -/
theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (if t.val < 25 then 0 else t.val % 25) ∧ win0_6.index t (1 : Fin 2) = 0
    ∧ win0_7.index t (0 : Fin 2) = (if t.val < 25 then 0 else t.val % 25) ∧ win0_7.index t (1 : Fin 2) = 0 :=
  (by decide +kernel : ∀ t : Fin grid0.N, _)

/-- adj's row block at point t: row r of the block is row 400 · (t mod 25) + r of adj. -/
theorem blk0 (c : Dev nD) (t : Fin cfg0.N) (r : Fin 400) (n : Fin 10000) (row : Fin 10000)
    (hrow : row.val = 400 * (t.val % 25) + r.val) :
    iblk m c 0 t (ix2 r n) = V m c main_arg0 (ix2 row n) := by
  show V m c main_arg0 (((cfg0.win 0).blk t).view.emb (ix2 r n)) = V m c main_arg0 _
  refine congrArg (V m c main_arg0) (funext fun a => Fin.ext ?_)
  obtain ⟨e0, e1, -⟩ := idx_facts t
  match a with
  | ⟨0, _⟩ => show win0_0.index t (0 : Fin 2) * 400 + 1 * r.val = row.val; omega
  | ⟨1, _⟩ => show win0_0.index t (1 : Fin 2) * 10000 + 1 * n.val = n.val; omega

/-- The whole of x. -/
theorem blk1 (c : Dev nD) (t : Fin cfg0.N) (n : Fin 10000) (a : Fin 128) :
    iblk m c 1 t (ix2 n a) = V m c main_arg1 (ix2 n a) := by
  show V m c main_arg1 (((cfg0.win 1).blk t).view.emb (ix2 n a)) = V m c main_arg1 _
  refine congrArg (V m c main_arg1) (funext fun b => Fin.ext ?_)
  obtain ⟨-, -, e0, e1, -⟩ := idx_facts t
  match b with
  | ⟨0, _⟩ => show win0_1.index t (0 : Fin 2) * 10000 + 1 * n.val = n.val; omega
  | ⟨1, _⟩ => show win0_1.index t (1 : Fin 2) * 128 + 1 * a.val = a.val; omega

/-- The whole of W1. -/
theorem blk2 (c : Dev nD) (t : Fin cfg0.N) (a : Fin 128) (l : Fin 128) :
    iblk m c 2 t (ix2 a l) = V m c main_arg2 (ix2 a l) := by
  show V m c main_arg2 (((cfg0.win 2).blk t).view.emb (ix2 a l)) = V m c main_arg2 _
  refine congrArg (V m c main_arg2) (funext fun b => Fin.ext ?_)
  obtain ⟨-, -, -, -, e0, e1, -⟩ := idx_facts t
  match b with
  | ⟨0, _⟩ => show win0_2.index t (0 : Fin 2) * 128 + 1 * a.val = a.val; omega
  | ⟨1, _⟩ => show win0_2.index t (1 : Fin 2) * 128 + 1 * l.val = l.val; omega

/-- The one-row array of b1, whole. -/
theorem blk3 (c : Dev nD) (t : Fin cfg0.N) (l : Fin 128) :
    iblk m c 3 t (ix2 (0 : Fin 1) l) = V m c main_v3 (ix2 (0 : Fin 1) l) := by
  show V m c main_v3 (((cfg0.win 3).blk t).view.emb (ix2 (0 : Fin 1) l)) = V m c main_v3 _
  refine congrArg (V m c main_v3) (funext fun b => Fin.ext ?_)
  obtain ⟨-, -, -, -, -, -, e0, e1, -⟩ := idx_facts t
  match b with
  | ⟨0, _⟩ => show win0_3.index t (0 : Fin 2) * 1 + 1 * 0 = 0; omega
  | ⟨1, _⟩ => show win0_3.index t (1 : Fin 2) * 128 + 1 * l.val = l.val; omega

/-- The side-by-side weights, whole. -/
theorem blk4 (c : Dev nD) (t : Fin cfg0.N) (l : Fin 128) (k : Fin 128) :
    iblk m c 4 t (ix2 l k) = V m c main_v0 (ix2 l k) := by
  show V m c main_v0 (((cfg0.win 4).blk t).view.emb (ix2 l k)) = V m c main_v0 _
  refine congrArg (V m c main_v0) (funext fun b => Fin.ext ?_)
  obtain ⟨-, -, -, -, -, -, -, -, e0, e1, -⟩ := idx_facts t
  match b with
  | ⟨0, _⟩ => show win0_4.index t (0 : Fin 2) * 128 + 1 * l.val = l.val; omega
  | ⟨1, _⟩ => show win0_4.index t (1 : Fin 2) * 128 + 1 * k.val = k.val; omega

/-- The end-to-end biases as a one-row array, whole. -/
theorem blk5 (c : Dev nD) (t : Fin cfg0.N) (k : Fin 128) :
    iblk m c 5 t (ix2 (0 : Fin 1) k) = V m c main_v2 (ix2 (0 : Fin 1) k) := by
  show V m c main_v2 (((cfg0.win 5).blk t).view.emb (ix2 (0 : Fin 1) k)) = V m c main_v2 _
  refine congrArg (V m c main_v2) (funext fun b => Fin.ext ?_)
  obtain ⟨-, -, -, -, -, -, -, -, -, -, e0, e1, -⟩ := idx_facts t
  match b with
  | ⟨0, _⟩ => show win0_5.index t (0 : Fin 2) * 1 + 1 * 0 = 0; omega
  | ⟨1, _⟩ => show win0_5.index t (1 : Fin 2) * 128 + 1 * k.val = k.val; omega

/-- eps's row block at a second-stage point t: row r of the block is row 400 · (t - 25) + r of eps. -/
theorem blk6 (c : Dev nD) (t : Fin cfg0.N) (h25 : 25 ≤ t.val) (r : Fin 400) (k : Fin 64) (row : Fin 10000)
    (hrow : row.val = 400 * (t.val - 25) + r.val) :
    iblk m c 6 t (ix2 r k) = V m c main_arg8 (ix2 row k) := by
  show V m c main_arg8 (((cfg0.win 6).blk t).view.emb (ix2 r k)) = V m c main_arg8 _
  refine congrArg (V m c main_arg8) (funext fun b => Fin.ext ?_)
  obtain ⟨-, -, -, -, -, -, -, -, -, -, -, -, e0, e1, -⟩ := idx_facts t
  have hN : t.val < 50 := lt_of_lt_of_eq t.isLt (show cfg0.N = 50 from N_0)
  rw [if_neg (by omega)] at e0
  match b with
  | ⟨0, _⟩ => show win0_6.index t (0 : Fin 2) * 400 + 1 * r.val = row.val; omega
  | ⟨1, _⟩ => show win0_6.index t (1 : Fin 2) * 64 + 1 * k.val = k.val; omega

/-! The arrays the first lines wrote, as the region finds them. -/

/-- b1 as a one-row array. -/
theorem host_b1 (c : Dev nD) :
    (V m c main_v3 : S1x128.Idx → EReal) = shapeCast S1x128 (m ((c : Thread nD τ).loc main_arg3)) shapeCasts_S128_S1x128 := by
  dsimp only [Gen.V, Gen.hostOps0]; after_results; rfl

/-- The two head weights side by side. -/
theorem host_w (c : Dev nD) :
    (V m c main_v0 : S128x128.Idx → EReal)
      = concatenate S128x128 1 [⟨S128x64, m ((c : Thread nD τ).loc main_arg4)⟩, ⟨S128x64, m ((c : Thread nD τ).loc main_arg6)⟩]
          concatenates_S128x64_S128x64_S128x128_d1 := by
  dsimp only [Gen.V, Gen.hostOps0]; after_results

/-- The two head biases end to end, as a one-row array. -/
theorem host_b (c : Dev nD) :
    (V m c main_v2 : S1x128.Idx → EReal)
      = shapeCast S1x128 (concatenate S128 0 [⟨S64, m ((c : Thread nD τ).loc main_arg5)⟩, ⟨S64, m ((c : Thread nD τ).loc main_arg7)⟩]
          concatenates_S64_S64_S128_d0) shapeCasts_S128_S1x128 := by
  dsimp only [Gen.V, Gen.hostOps0]; after_results; rfl

/-- The one-row array of b1 at column l is b1 at l. -/
theorem b1_at (c : Dev nD) (l : Fin 128) :
    V m c main_v3 (ix2 (0 : Fin 1) l) = m ((c : Thread nD τ).loc main_arg3) (ix1 l) := by
  have e := congrFun (host_b1 m c) (ix2 (0 : Fin 1) l)
  refine e.trans ?_
  refine (shapeCast_addUnit_apply ![128] _ _ (ix2 (0 : Fin 1) l)).trans ?_
  exact congrArg _ (funext fun a => by match a with | ⟨0, _⟩ => rfl)

/-- The side-by-side weights at (l, k): the first head's column k below 64, the second's column k - 64 from 64 on. -/
theorem w_at (c : Dev nD) (l : Fin 128) (k : Fin 128) :
    V m c main_v0 (ix2 l k)
      = sideBySide (m ((c : Thread nD τ).loc main_arg4)) (m ((c : Thread nD τ).loc main_arg6)) l k := by
  have e := congrFun (host_w m c) (ix2 l k)
  refine e.trans ?_
  unfold sideBySide
  split
  · rename_i hk
    exact concatenate_pair_apply_left (t := S128x128) (s₁ := S128x64) (s₂ := S128x64) (1 : Fin 2) _ _ _ (ix2 l k) rfl (ix2 l (⟨k.val, hk⟩ : Fin 64)) fun b => by
      match b with
      | ⟨0, _⟩ => rfl
      | ⟨1, _⟩ => rfl
  · rename_i hk
    exact concatenate_pair_apply_right (t := S128x128) (s₁ := S128x64) (s₂ := S128x64) (1 : Fin 2) _ _ _ (ix2 l k) rfl rfl
      (ix2 l (⟨k.val - 64, by have := k.isLt; omega⟩ : Fin 64)) (fun b hb => by
        match b with
        | ⟨0, _⟩ => rfl
        | ⟨1, _⟩ => exact absurd rfl hb) (by show k.val - 64 + 64 = k.val; omega)

/-- The end-to-end biases' row at column k: the first bias at k below 64, the second at k - 64 from 64 on. -/
theorem bias_at (c : Dev nD) (k : Fin 128) :
    V m c main_v2 (ix2 (0 : Fin 1) k)
      = endToEnd (m ((c : Thread nD τ).loc main_arg5)) (m ((c : Thread nD τ).loc main_arg7)) k := by
  have e := congrFun (host_b m c) (ix2 (0 : Fin 1) k)
  refine e.trans ?_
  refine (shapeCast_addUnit_apply ![128] _ _ (ix2 (0 : Fin 1) k)).trans ?_
  have hi : (fun a : Fin 1 => (ix2 (0 : Fin 1) k) a.succ) = ix1 k := funext fun a => by match a with | ⟨0, _⟩ => rfl
  rw [hi]
  unfold endToEnd
  split
  · rename_i hk
    exact concatenate_pair_apply_left (t := S128) (s₁ := S64) (s₂ := S64) (0 : Fin 1) _ _ _ (ix1 k) rfl (ix1 (⟨k.val, hk⟩ : Fin 64)) fun b => by
      match b with
      | ⟨0, _⟩ => rfl
  · rename_i hk
    exact concatenate_pair_apply_right (t := S128) (s₁ := S64) (s₂ := S64) (0 : Fin 1) _ _ _ (ix1 k) rfl rfl
      (ix1 (⟨k.val - 64, by have := k.isLt; omega⟩ : Fin 64)) (fun b hb => by
        match b with
        | ⟨0, _⟩ => exact absurd rfl hb) (by show k.val - 64 + 64 = k.val; omega)

end Cert.KernelIdeal.Blocks

end
-- ==== Proof.Ideal.Sample.lean ====
/-
  The kernel's named contents are the encoder's. The kept product at (n, l) is xw (n, l). Band t at (r, k), with
  the band's rows starting at 400 · (t mod 25), is Σ_l hid (row, l) · W (l, k) for W the two heads' weights side by
  side; so the assembled hidden array at (j, k) is Σ_l hid (j, l) · W (l, k), since row j lies in band j / 400 at
  position j mod 400. The output block of a second-stage point t at (r, k), its rows starting at 400 · (t - 25), is
  the fused head's columns k and k + 64 put through the sample's pointwise tail with eps's block: the sample z at
  (row, k), because column k < 64 of the side-by-side weights and end-to-end biases is the mean head's and column
  k + 64 the log-variance head's.
-/
import proofs.«162829_g15874199126456_cont_week2b_1129_18_alg».proof.Proof.Ideal.Carried
import proofs.«162829_g15874199126456_cont_week2b_1129_18_alg».proof.Proof.Ideal.Payloads
import proofs.«162829_g15874199126456_cont_week2b_1129_18_alg».proof.Proof.Ideal.Blocks

set_option maxRecDepth 16384

noncomputable section

namespace Cert.KernelIdeal.Sample

open Cert.KernelIdeal Cert.KernelIdeal.Gen Cert.KernelIdeal.Body Cert.KernelIdeal.Payloads Cert.KernelIdeal.Blocks Cert.Encoder
open Idealize.ShloMosaic Idealize.ShloMosaic.ValueIdx Idealize.ShloMosaic.TcCoe Idealize.SL.Sem
open scoped BigOperators

variable (m : (ℓ : Loc nD τ sig) → Buf (Elt Ideal) ℓ)

/-- The nine argument arrays on core c, as launched. -/
abbrev aAdj (c : Dev nD) : (A2 10000 10000).Idx → EReal := m ((c : Thread nD τ).loc main_arg0)
abbrev aX (c : Dev nD) : (A2 10000 128).Idx → EReal := m ((c : Thread nD τ).loc main_arg1)
abbrev aW1 (c : Dev nD) : (A2 128 128).Idx → EReal := m ((c : Thread nD τ).loc main_arg2)
abbrev aB1 (c : Dev nD) : (A1 128).Idx → EReal := m ((c : Thread nD τ).loc main_arg3)
abbrev aWmu (c : Dev nD) : (A2 128 64).Idx → EReal := m ((c : Thread nD τ).loc main_arg4)
abbrev aBmu (c : Dev nD) : (A1 64).Idx → EReal := m ((c : Thread nD τ).loc main_arg5)
abbrev aWlv (c : Dev nD) : (A2 128 64).Idx → EReal := m ((c : Thread nD τ).loc main_arg6)
abbrev aBlv (c : Dev nD) : (A1 64).Idx → EReal := m ((c : Thread nD τ).loc main_arg7)
abbrev aEps (c : Dev nD) : (A2 10000 64).Idx → EReal := m ((c : Thread nD τ).loc main_arg8)

/-- The kept product is x · W1. -/
theorem prod_apply (c : Dev nD) (n : Fin 10000) (l : Fin 128) :
    prodP m c (ix2 n l) = xw (aX m c) (aW1 m c) n l := by
  unfold prodP xw
  exact pay1_eq (iblk m c 1 pt0) (iblk m c 2 pt0) n l _ _
    (fun a => by rw [blk1, V_main_arg1]) (fun a => by rw [blk2, V_main_arg2])

/-- Band t at (r, k), for the array row that position r of the band is. -/
theorem band_apply (c : Dev nD) (t : Fin cfg0.N) (r : Fin 400) (k : Fin 128) (row : Fin 10000)
    (hrow : row.val = 400 * (t.val % 25) + r.val) :
    band m c t (ix2 r k)
      = ∑ l : Fin 128, hid (aAdj m c) (aX m c) (aW1 m c) (aB1 m c) row l * sideBySide (aWmu m c) (aWlv m c) l k := by
  unfold band hid
  exact pay2_eq (iblk m c 0 t) (prodP m c) (iblk m c 3 t) (iblk m c 4 t) r k
    (fun n => aAdj m c (ix2 row n)) (fun n l => xw (aX m c) (aW1 m c) n l) (fun l => aB1 m c (ix1 l))
    (fun l => sideBySide (aWmu m c) (aWlv m c) l k)
    (fun n => by rw [blk0 m c t r n row hrow, V_main_arg0]) (fun n l => prod_apply m c n l)
    (fun l => by rw [blk3, b1_at]) (fun l => by rw [blk4, w_at])

/-- The assembled hidden array at (j, k). -/
theorem hidden_apply (c : Dev nD) (j : Fin 10000) (k : Fin 128) :
    hidden m c (ix2 j k)
      = ∑ l : Fin 128, hid (aAdj m c) (aX m c) (aW1 m c) (aB1 m c) j l * sideBySide (aWmu m c) (aWlv m c) l k := by
  have hj : j.val < 10000 := j.isLt
  have hN : cfg0.N = 50 := N_0
  exact band_apply m c ⟨j.val / 400, by omega⟩ ⟨j.val % 400, Nat.mod_lt _ (by decide)⟩ k j
    (by show j.val = 400 * ((j.val / 400) % 25) + j.val % 400; omega)

/-- The output block of a second-stage point at (r, k) is the sample at the array row. -/
theorem out_apply (c : Dev nD) (t : Fin cfg0.N) (h25 : 25 ≤ t.val) (r : Fin 400) (k : Fin 64) (row : Fin 10000)
    (hrow : row.val = 400 * (t.val - 25) + r.val) :
    outBlock m c t (ix2 r k)
      = z (aAdj m c) (aX m c) (aW1 m c) (aB1 m c) (aWmu m c) (aBmu m c) (aWlv m c) (aBlv m c) (aEps m c) row k := by
  have hN : t.val < 50 := lt_of_lt_of_eq t.isLt (show cfg0.N = 50 from N_0)
  unfold outBlock z
  rw [← fused_low (aAdj m c) (aX m c) (aW1 m c) (aB1 m c) (aWmu m c) (aBmu m c) (aWlv m c) (aBlv m c) row k,
    ← fused_high (aAdj m c) (aX m c) (aW1 m c) (aB1 m c) (aWmu m c) (aBmu m c) (aWlv m c) (aBlv m c) row k]
  unfold fused
  exact pay3_eq (iblk m c 0 t) (hidden m c) (iblk m c 5 t) (iblk m c 6 t) r k
    (fun j => aAdj m c (ix2 row j))
    (fun j k' => ∑ l : Fin 128, hid (aAdj m c) (aX m c) (aW1 m c) (aB1 m c) j l * sideBySide (aWmu m c) (aWlv m c) l k')
    (fun k' => endToEnd (aBmu m c) (aBlv m c) k') (aEps m c (ix2 row k))
    (fun j => by rw [blk0 m c t r j row (by omega), V_main_arg0]) (fun j k' => hidden_apply m c j k')
    (fun k' => by rw [blk5, bias_at]) (by rw [blk6 m c t h25 r k row hrow, V_main_arg8])

end Cert.KernelIdeal.Sample

end
-- ==== Proof.Ideal.Final.lean ====
/-
  The result array after the run. The output window is written back exactly at the second-stage points; the block
  written back at point t, rows [400 · (t - 25), + 400) of the result, is the sample at those rows; and every row
  r of the result lies in the block of point 25 + r / 400. So the result array ends at the sample z of the nine
  argument arrays, entry by entry, and the argument arrays end as launched.
-/
import proofs.«162829_g15874199126456_cont_week2b_1129_18_alg».proof.Proof.Ideal.Region
import proofs.«162829_g15874199126456_cont_week2b_1129_18_alg».proof.Proof.Ideal.Sample

set_option maxRecDepth 16384

noncomputable section

namespace Cert.KernelIdeal.Sample

open Cert.KernelIdeal Cert.KernelIdeal.Gen Cert.KernelIdeal.Body Cert.KernelIdeal.Payloads Cert.KernelIdeal.Blocks Cert.Encoder
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The sample z of the nine argument arrays, as an array [10000, 64]. -/
def sampled (c : Dev nD) : S10000x64.Idx → EReal := fun i =>
  z (aAdj m c) (aX m c) (aW1 m c) (aB1 m c) (aWmu m c) (aBmu m c) (aWlv m c) (aBlv m c) (aEps m c)
    (⟨(i (0 : Fin 2)).val, (i (0 : Fin 2)).isLt⟩ : Fin 10000) (⟨(i (1 : Fin 2)).val, (i (1 : Fin 2)).isLt⟩ : Fin 64)

/-- The output window is written back at every second-stage point. -/
theorem flushOut : ∀ t : Fin cfg0.N, 25 ≤ t.val → (cfg0.win 7).flush t = true := by decide +kernel

/-- What point t writes back is block t of the sample. -/
theorem flushed_eq (c : Dev nD) (t : Fin cfg0.N) (hf : (cfg0.win 7).flush t = true) :
    (dats m 0 c).flushed 7 t = ((cfg0.win 7).blk t).view.read (Elt Ideal) (sampled m c) := by
  have h25 : 25 ≤ t.val := by
    by_contra h
    have hnf := noFlushOut t (by omega)
    rw [hnf] at hf
    exact Bool.false_ne_true hf
  have hN : t.val < 50 := lt_of_lt_of_eq t.isLt (show cfg0.N = 50 from N_0)
  show (cfg0.win 7).cut (grid0.coords t) ((dats m 0 c).after 7 t) = _
  rw [after7]
  funext y
  obtain ⟨r, k, rfl⟩ : ∃ (r : Fin 400) (k : Fin 64), y = ix2 r k := ⟨y 0, y 1, eq_ix2 y⟩
  obtain ⟨-, -, -, -, -, -, -, -, -, -, -, -, -, -, e0, e1⟩ := idx_facts t
  rw [if_neg (by omega)] at e0
  have e0' : (((cfg0.win 7).blk t).view.emb (ix2 r k) (0 : Fin 2)).val = 400 * (t.val - 25) + r.val := by
    show win0_7.index t (0 : Fin 2) * 400 + 1 * r.val = _; omega
  have e1' : (((cfg0.win 7).blk t).view.emb (ix2 r k) (1 : Fin 2)).val = k.val := by
    show win0_7.index t (1 : Fin 2) * 64 + 1 * k.val = _; omega
  show outBlock m c t (ix2 r k) = sampled m c (((cfg0.win 7).blk t).view.emb (ix2 r k))
  unfold sampled
  rw [out_apply m c t h25 r k ⟨_, (((cfg0.win 7).blk t).view.emb (ix2 r k) (0 : Fin 2)).isLt⟩ e0']
  exact congrArg (z (aAdj m c) (aX m c) (aW1 m c) (aB1 m c) (aWmu m c) (aBmu m c) (aWlv m c) (aBlv m c) (aEps m c) _) (Fin.ext e1'.symm)

/-- An index of the result is in point t's block iff each coordinate is in the block's range on its axis. -/
theorem mem_blk (t : Fin cfg0.N) (i : S10000x64.Idx) :
    i ∈ ((cfg0.win 7).blk t).view.set ↔ ∀ a : Fin 2, win0_7.index t a * S400x64.size a ≤ (i a).val
      ∧ (i a).val < win0_7.index t a * S400x64.size a + S400x64.size a := by
  show i ∈ ((View.whole main_v4).slice (win0_7.rect t)).set ↔ _
  rw [View.set_slice_whole, Rect.mem_set_unit]
  exact Iff.rfl

/-- Every index of the result lies in the block of a point that writes back: row r in that of point 25 + r / 400. -/
theorem covered (i : S10000x64.Idx) :
    ∃ t : Fin cfg0.N, (cfg0.win 7).flush t = true ∧ i ∈ ((cfg0.win 7).blk t).view.set := by
  have hi0 : (i (0 : Fin 2)).val < 10000 := (i (0 : Fin 2)).isLt
  have hi1 : (i (1 : Fin 2)).val < 64 := (i (1 : Fin 2)).isLt
  have hN : cfg0.N = 50 := N_0
  obtain ⟨t, ht⟩ : ∃ t : Fin cfg0.N, t.val = 25 + (i (0 : Fin 2)).val / 400 := ⟨⟨25 + (i (0 : Fin 2)).val / 400, by omega⟩, rfl⟩
  refine ⟨t, flushOut t (by omega), ?_⟩
  rw [mem_blk]
  obtain ⟨-, -, -, -, -, -, -, -, -, -, -, -, -, -, e0, e1⟩ := idx_facts t
  rw [if_neg (by omega)] at e0
  intro a
  match a with
  | ⟨0, _⟩ =>
    show win0_7.index t (0 : Fin 2) * 400 ≤ (i (0 : Fin 2)).val ∧ (i (0 : Fin 2)).val < win0_7.index t (0 : Fin 2) * 400 + 400
    omega
  | ⟨1, _⟩ =>
    show win0_7.index t (1 : Fin 2) * 64 ≤ (i (1 : Fin 2)).val ∧ (i (1 : Fin 2)).val < win0_7.index t (1 : Fin 2) * 64 + 64
    omega

/-- The result array after the run is the sample. -/
theorem final (c : Dev nD) : (dats m 0 c).arrAt 7 cfg0.N = sampled m c :=
  (dats m 0 c).arrAt_eq_of_cover 7 (sampled m c) (fun t hf => flushed_eq m c t hf) covered

/-- The run re-posted: the result array at the sample of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4) = sampled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 6).trans (((dats m 0 c).arrAt_in 6 rfl _).trans ((A_eq m c 6).trans (V_main_arg8 m c)))⟩)
    (run_main m ρ)

end Cert.KernelIdeal.Sample

end
-- ==== Proof.Ideal.RefSide.lean ====
/-
  The reference program's result, read at an index, is the encoder's sample z: its four matrix products are the
  four sums (each operand index named by its coordinates), its bias rows are the biases at the column, its maximum
  against the zero word is the relu, and its exponential of one half times the log-variance head is the exp factor.
-/
import proofs.«162829_g15874199126456_cont_week2b_1129_18_alg».proof.Proof.Gen.ReferenceIdeal.Run
import proofs.«162829_g15874199126456_cont_week2b_1129_18_alg».proof.Proof.Gen.ReferenceIdeal.Read
import proofs.«162829_g15874199126456_cont_week2b_1129_18_alg».proof.Proof.Spec

noncomputable section

namespace Cert.ReferenceIdeal.RefValue

open Cert.ReferenceIdeal Cert.ReferenceIdeal.Gen Cert.ReferenceIdeal.Read Cert.Encoder
open Idealize.ShloMosaic Idealize.ShloMosaic.ValueIdx Idealize.ShloMosaic.TcCoe
open scoped BigOperators

local macro "coords2" : tactic => `(tactic| (funext a; match a with | ⟨0, _⟩ => rfl | ⟨1, _⟩ => rfl))
local macro "coords1" : tactic => `(tactic| (funext a; match a with | ⟨0, _⟩ => rfl))

/-! The operand indices of the four products and the bias rows, by coordinates. -/
theorem l0 (n : Fin 10000) (l : Fin 128) (a : Fin 128) : lidx_main_v0 (ix2 n l) a = ix2 n a := by coords2
theorem r0 (n : Fin 10000) (l : Fin 128) (a : Fin 128) : ridx_main_v0 (ix2 n l) a = ix2 a l := by coords2
theorem l1 (j : Fin 10000) (l : Fin 128) (n : Fin 10000) : lidx_main_v1 (ix2 j l) n = ix2 j n := by coords2
theorem r1 (j : Fin 10000) (l : Fin 128) (n : Fin 10000) : ridx_main_v1 (ix2 j l) n = ix2 n l := by coords2
theorem i3 (j : Fin 10000) (l : Fin 128) : idx_main_v3 (ix2 j l) = ix2 (0 : Fin 1) l := by coords2
theorem i2 (l : Fin 128) : idx_main_v2 (ix2 (0 : Fin 1) l) = ix1 l := by coords1
theorem l7 (j : Fin 10000) (k : Fin 64) (l : Fin 128) : lidx_main_v7 (ix2 j k) l = ix2 j l := by coords2
theorem r7 (j : Fin 10000) (k : Fin 64) (l : Fin 128) : ridx_main_v7 (ix2 j k) l = ix2 l k := by coords2
theorem l8 (r : Fin 10000) (k : Fin 64) (j : Fin 10000) : lidx_main_v8 (ix2 r k) j = ix2 r j := by coords2
theorem r8 (r : Fin 10000) (k : Fin 64) (j : Fin 10000) : ridx_main_v8 (ix2 r k) j = ix2 j k := by coords2
theorem i10 (r : Fin 10000) (k : Fin 64) : idx_main_v10 (ix2 r k) = ix2 (0 : Fin 1) k := by coords2
theorem i9 (k : Fin 64) : idx_main_v9 (ix2 (0 : Fin 1) k) = ix1 k := by coords1
theorem l12 (j : Fin 10000) (k : Fin 64) (l : Fin 128) : lidx_main_v12 (ix2 j k) l = ix2 j l := by coords2
theorem r12 (j : Fin 10000) (k : Fin 64) (l : Fin 128) : ridx_main_v12 (ix2 j k) l = ix2 l k := by coords2
theorem l13 (r : Fin 10000) (k : Fin 64) (j : Fin 10000) : lidx_main_v13 (ix2 r k) j = ix2 r j := by coords2
theorem r13 (r : Fin 10000) (k : Fin 64) (j : Fin 10000) : ridx_main_v13 (ix2 r k) j = ix2 j k := by coords2
theorem i15 (r : Fin 10000) (k : Fin 64) : idx_main_v15 (ix2 r k) = ix2 (0 : Fin 1) k := by coords2
theorem i14 (k : Fin 64) : idx_main_v14 (ix2 (0 : Fin 1) k) = ix1 k := by coords1

/-- The reference's result at (r, k) is the sample z (r, k) of its nine arguments. -/
theorem ref_apply (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S10000x64, .f32⟩ : BufTy).Contents (Elt Ideal))
    (r : Fin 10000) (k : Fin 64) :
    val_main_v21 (F := Ideal) x0 x1 x2 x3 x4 x5 x6 x7 x8 (ix2 r k) = z x0 x1 x2 x3 x4 x5 x6 x7 x8 r k := by
  unfold z head hid xw
  simp only [val_main_v21_apply, val_main_v11_apply, val_main_v8_apply, val_main_v7_apply, val_main_v6_apply, val_main_v4_apply,
    val_main_v1_apply, val_main_v0_apply, val_main_v3_apply, val_main_v2_apply, val_main_v5_apply, val_main_cst_apply,
    val_main_v10_apply, val_main_v9_apply, val_main_v20_apply, val_main_v19_apply, val_main_v18_apply, val_main_v17_apply,
    val_main_cst_0_apply, val_main_v16_apply, val_main_v13_apply, val_main_v12_apply, val_main_v15_apply, val_main_v14_apply,
    l0, r0, l1, r1, i3, i2, l7, r7, l8, r8, i10, i9, l12, r12, l13, r13, i15, i14,
    Ideal.addf_def, Ideal.mulf_def, Ideal.maximumf_def, Ideal.hostUnary_exp_def, Ideal.ofBits_def]

end Cert.ReferenceIdeal.RefValue

end
-- ==== Proof.lean ====
/-
  A graph encoder's sample, computed two ways over the extended reals.

  Both programs take an adjacency array adj [10000, 10000], features x [10000, 128], a hidden layer (W1, b1), two heads
  (W_mu, b_mu) and (W_lv, b_lv), and noise eps [10000, 64], and return

      z = mu + exp (1/2 · lv) · eps,   mu = adj · (h · W_mu) + b_mu,   lv = adj · (h · W_lv) + b_lv,
      h = relu (adj · (x · W1) + b1).

  The reference forms the three propagations one after the other. The kernel lays the two heads' weights side by side
  and their biases end to end, and runs one grid of fifty points in two stages: the first twenty-five points form x · W1
  once and then, row band by row band, h · [W_mu | W_lv], kept on chip; the last twenty-five form, row band by row band,
  adj · (kept) + [b_mu | b_lv] and from its two column halves the sample. No sum is regrouped along its contraction
  axis: each row band takes the whole of its rows of adj, so the two programs add the same products, and column k of
  the side-by-side product is the mean head's column k, column k + 64 the log-variance head's. The equality therefore
  uses no finiteness of the inputs.

  The frames: the kernel's run at either reading of the floats is its fifty body runs under an invariant that names
  what the two kept arrays hold (x · W1; the bands stored so far); the reference's is its generated run.
-/
import proofs.«162829_g15874199126456_cont_week2b_1129_18_alg».proof.Defs
import proofs.«162829_g15874199126456_cont_week2b_1129_18_alg».proof.Proof.Gen.Kernel
import proofs.«162829_g15874199126456_cont_week2b_1129_18_alg».proof.Proof.Gen.KernelIdeal
import proofs.«162829_g15874199126456_cont_week2b_1129_18_alg».proof.Proof.Gen.ReferenceIdeal
import proofs.«162829_g15874199126456_cont_week2b_1129_18_alg».proof.Proof.Gen.Pre_finite_inputs
import proofs.«162829_g15874199126456_cont_week2b_1129_18_alg».proof.Proof.Gen.ReferenceIdeal.Run
import proofs.«162829_g15874199126456_cont_week2b_1129_18_alg».proof.Proof.Gen.ReferenceIdeal.Read
import proofs.«162829_g15874199126456_cont_week2b_1129_18_alg».proof.Proof.Bits.Region
import proofs.«162829_g15874199126456_cont_week2b_1129_18_alg».proof.Proof.Ideal.Final
import proofs.«162829_g15874199126456_cont_week2b_1129_18_alg».proof.Proof.Ideal.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Body.frame m ρ

/-- So does its reading on the extended reals. -/
theorem frame_kernelIdeal : Cert.frame_KernelIdeal := fun m ρ _ => Cert.KernelIdeal.Body.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's text was not rewritten. -/
theorem preserves : Cert.preserves_Kernel_KernelIdeal := trivial

/-- On the extended reals the kernel's result array ends at the sample z of its arguments, and the reference's result,
    read at an index, is the same sample of arguments that agree. -/
theorem algebraic : Cert.algebraic_KernelIdeal_ReferenceIdeal := by
  intro m ρ m' ρ' _ hagree
  refine ⟨fun c => Cert.KernelIdeal.Sample.sampled m c, Cert.KernelIdeal.Sample.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v21_eq]
  funext i
  obtain ⟨r, k, rfl⟩ : ∃ (r : Fin 10000) (k : Fin 64), i = ValueIdx.ix2 r k := ⟨i 0, i 1, ValueIdx.eq_ix2 i⟩
  exact Cert.ReferenceIdeal.RefValue.ref_apply _ _ _ _ _ _ _ _ _ r k

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
